-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x256 .f32) (main_arg3 : FVec F S256 .f32) (main_arg4 : FVec F S256x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x256 : Shape := ⟨2, ![5000, 256]⟩
abbrev S50000x1 : Shape := ⟨2, ![50000, 1]⟩
abbrev S850000x256 : Shape := ⟨2, ![850000, 256]⟩
abbrev S1x256 : Shape := ⟨2, ![1, 256]⟩
abbrev S50000x128 : Shape := ⟨2, ![50000, 128]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 81
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S256x256, .bf16⟩
  | .hbm, ⟨31, _⟩ => ⟨S50000x256, .f32⟩
  | .hbm, ⟨32, _⟩ => ⟨S50000x1, .f32⟩
  | .hbm, ⟨33, _⟩ => ⟨S50000x256, .f32⟩
  | .hbm, ⟨34, _⟩ => ⟨S50000x256, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000x256, .f32⟩
  | .hbm, ⟨44, _⟩ => ⟨S_, .f32⟩
  | .hbm, ⟨45, _⟩ => ⟨S50000x256, .f32⟩
  | .hbm, ⟨46, _⟩ => ⟨S850000x1, .i32⟩
  | .hbm, ⟨47, _⟩ => ⟨S50000x256, .f32⟩
  | .hbm, ⟨48, _⟩ => ⟨S50000x1, .f32⟩
  | .hbm, ⟨49, _⟩ => ⟨S50000x256, .f32⟩
  | .hbm, ⟨50, _⟩ => ⟨S50000x256, .f32⟩
  | .hbm, ⟨51, _⟩ => ⟨S1x256, .f32⟩
  | .hbm, ⟨52, _⟩ => ⟨S50000x256, .f32⟩
  | .hbm, ⟨53, _⟩ => ⟨S50000x256, .f32⟩
  | .hbm, ⟨54, _⟩ => ⟨S_, .f32⟩
  | .hbm, ⟨55, _⟩ => ⟨S50000x256, .f32⟩
  | .hbm, ⟨56, _⟩ => ⟨S50000x256, .f32⟩
  | .hbm, ⟨57, _⟩ => ⟨S256x128, .bf16⟩
  | .hbm, ⟨58, _⟩ => ⟨S50000x128, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S_, .i32⟩
  | .hbm, ⟨63, _⟩ => ⟨S850000, .i32⟩
  | .hbm, ⟨64, _⟩ => ⟨S850000, .i1⟩
  | .hbm, ⟨65, _⟩ => ⟨S_, .i32⟩
  | .hbm, ⟨66, _⟩ => ⟨S850000, .i32⟩
  | .hbm, ⟨67, _⟩ => ⟨S850000, .i32⟩
  | .hbm, ⟨68, _⟩ => ⟨S850000, .i32⟩
  | .hbm, ⟨69, _⟩ => ⟨S850000x1, .i32⟩
  | .hbm, ⟨70, _⟩ => ⟨S850000x128, .f32⟩
  | .hbm, ⟨71, _⟩ => ⟨S_, .f32⟩
  | .hbm, ⟨72, _⟩ => ⟨S50000x128, .f32⟩
  | .hbm, ⟨73, _⟩ => ⟨S850000x1, .i32⟩
  | .hbm, ⟨74, _⟩ => ⟨S50000x128, .f32⟩
  | .hbm, ⟨75, _⟩ => ⟨S50000x1, .f32⟩
  | .hbm, ⟨76, _⟩ => ⟨S50000x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x256, .bf16⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x128, .bf16⟩
  | .local _ .vmem, ⟨8, _⟩ => ⟨S5000x128, .f32⟩
  | .local _ .vmem, ⟨9, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call1_cst : Ref sig .tc := ⟨.hbm, 54, rfl⟩
abbrev main_call1_v0 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_6 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S5000x256_S5000x256_0_0 : ∀ a, (![0, 0] : Fin 2 → Nat) a + S5000x256.size a ≤ S5000x256.size a
  h_S5000x256 : 0 < S5000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  dot_S5000x256_S256x256_S5000x256_1_0_0_1_n_n_wf : DotDims.WF S5000x256 S256x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .bf16 = 32 ∨ (Rect.block (s := S256x128) S256x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x256, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x128, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x128, .f32⟩
  | .hbm, ⟨82, _⟩ => ⟨S850000x1, .f32⟩
  | .hbm, ⟨83, _⟩ => ⟨S850000x128, .f32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's run with its result named.

  @main is nine segments: three stretches of host operations, the first matrix-product region, three more stretches,
  the second region, and the closing stretch. The buffer contents at each boundary are a fold from the launch memory:
  a stretch applies its operations (`StableHlo.after`), a region replaces its arrays by what its write-backs leave. The
  launch theorem for programs of several regions gives, at the end, every unscoped buffer at the last boundary's contents
  `W9`; read at the result's buffer that is the result, and read at an argument's buffer it walks back to the launch
  memory. The frame claim keeps the arguments only; this is the same run keeping the result as well.
-/
import proofs.«131490_j2448131358806_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result's buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v59) = W9 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v59 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.LibPlainDot.lean ====
/-
  A plain matrix product — rows × contraction times contraction × columns, no batch axis — read at an index.

  For dimension numbers `d` of that kind over shapes `[P, K]`, `[K, Q]`, `[P, Q]`, the exact contraction
  `∑ κ, l (d.lhsIdx j κ) * r (d.rhsIdx j κ)` over the one contracted axis is the textbook sum
  `∑ k : Fin K, l (p, k) * r (k, q)` at the result index `j = (p, q)`: the left operand is read at row `p` and the
  right at column `q`, and the contracted axis of extent `K` is re-indexed by `Fin K`.
-/
import Idealize.ShloMosaic.Lib.ValueIdx
import Idealize.ShloMosaic.PureOps.Ideal.Laws

noncomputable section

namespace PlainDot

open Idealize.ShloMosaic Idealize.ShloMosaic.ValueIdx

variable {P K Q : Nat}

/-- The dimension numbers of a plain product: the left operand contracts its second axis against the right operand's
    first; the other two axes are the result's, in that order; no batch axis. -/
structure IsPlain (d : DotDims ⟨2, ![P, K]⟩ ⟨2, ![K, Q]⟩ ⟨2, ![P, Q]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![K, Q]⟩ ⟨2, ![P, Q]⟩}

/-- The left operand's row is the result's row. -/
theorem lhs_row (h : IsPlain d) (j : (⟨2, ![P, Q]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's column is the result's column. -/
theorem rhs_col (h : IsPlain d) (j : (⟨2, ![P, Q]⟩ : Shape).Idx) (κ : d.contr.Idx) :
    (d.rhsIdx j κ (1 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsPlain d) : d.contr.rank = 1 := by rw [d.rank_contr, h.lc]; rfl

theorem contr_size (h : IsPlain d) : d.contr.size ⟨0, by rw [contr_rank h]; exact Nat.one_pos⟩ = K := by
  have e := d.size_contr 0 (by rw [h.lc]; exact Nat.one_pos)
  rw [e]
  simp [h.lc]

/-- THE PRODUCT AT `(p, q)`: the sum over `k : Fin K` of the left operand at `(p, k)` times the right at `(k, q)`. -/
theorem sum_eq (h : IsPlain d) (l : (⟨2, ![P, K]⟩ : Shape).Idx → EReal) (r : (⟨2, ![K, Q]⟩ : Shape).Idx → EReal)
    (p : Fin P) (q : Fin Q) :
    ∑ κ : d.contr.Idx, l (d.lhsIdx (ix2 p q) κ) * r (d.rhsIdx (ix2 p q) κ) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p q) ((contrEquiv1 d K (contr_rank h) (contr_size h)).symm k) = ix2 k q :=
    funext fun a => Fin.ext (by
      match a with
      | ⟨0, _⟩ => exact (d.rhsIdx_val_of_single h.rc _ _).trans hk
      | ⟨1, _⟩ => exact rhs_col h _ _)
  rw [el, er]

/-- A `tpu.matmul` into the zero accumulator, at the ideal instance, read at `(p, q)`. -/
theorem matmul_zero_apply (h : IsPlain d) {φ₁ φ₂ : FTy} (l : FVec Ideal ⟨2, ![P, K]⟩ φ₁) (r : FVec Ideal ⟨2, ![K, Q]⟩ φ₂)
    (p : Fin P) (q : Fin Q) :
    FloatOps.matmul d none l r (constant ⟨2, ![P, Q]⟩ .f32 0x00000000#32) (ix2 p q) = ∑ k : Fin K, l (ix2 p k) * r (ix2 k q) := by
  rw [Ideal.matmul_constant_zero_apply]
  exact sum_eq h l r p q

/-- The host's `dot_general`, at the ideal instance, read at `(p, q)`. -/
theorem dotGeneral_apply (h : IsPlain d) {φ₁ φ₂ : FTy} (sched : HostSchedule) (l : FVec Ideal ⟨2, ![P, K]⟩ φ₁)
    (r : FVec Ideal ⟨2, ![K, Q]⟩ φ₂) (p : Fin P) (q : Fin Q) :
    FloatOps.dotGeneral d none sched l r (ix2 p q) = ∑ k : Fin K, l (ix2 p k) * r (ix2 k q) := by
  rw [Ideal.dotGeneral_apply]
  exact sum_eq h l r p q

end PlainDot

end
-- ==== Proof.LibErealAlgebra.lean ====
/-
  Algebra on the extended reals for sums of products whose factors are real numbers.

  The extended reals are a commutative additive monoid and a commutative multiplicative monoid, but
  multiplication does not distribute over addition when the common factor is infinite
  (`⊤ * (1 + -1) = 0` while `⊤ * 1 + ⊤ * -1 = ⊥`). Every law below that moves a factor across a sum
  therefore asks that the factors be real numbers; the laws that only regroup or reorder a sum do not.

  * `IsReal x`: the extended real `x` is (the image of) a real number; closed under `0`, `1`, `+`, `*`,
    `max`, finite sums, and the quotient by a nonzero real.
  * `quot_eq_mul_recip`: dividing by a nonzero real is multiplying by the quotient `1 / c` computed first.
  * `sum_mul_add_indicator`: a row times a matrix column to which a unit vector was added is the row times the
    column plus the row's entry at the unit vector's position — the identity that folds a residual
    connection `h + h·Wᵀ` into one product `h·(W + I)ᵀ`.
-/
import Idealize.ShloMosaic.PureOps.Ideal

noncomputable section

namespace ErealAlgebra

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal (0 : EReal) := ⟨0, by simp⟩

theorem IsReal.one : IsReal (1 : EReal) := ⟨1, by simp⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

/-- A finite sum of real numbers is a real number. -/
theorem IsReal.sum {ι : Type*} (s : Finset ι) (f : ι → EReal) (hf : ∀ i ∈ s, IsReal (f i)) :
    IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The quotient of a real number by a nonzero real number is a real number. -/
theorem IsReal.div_coe {x : EReal} (hx : IsReal x) {c : ℝ} (hc : c ≠ 0) : IsReal (Ideal.div x (c : EReal)) := by
  rw [Ideal.div_coe hc]
  exact hx.mul (IsReal.coe _)

/-- Dividing by a nonzero real `c` is multiplying by the quotient `1 / c` computed first, for every extended
    real dividend. -/
theorem quot_eq_mul_recip (s : EReal) {c : ℝ} (hc : c ≠ 0) :
    s * Ideal.div 1 (c : EReal) = Ideal.div s (c : EReal) := by
  rw [Ideal.div_coe hc, Ideal.div_coe hc, one_mul]

/-- The coercion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row `h` of real numbers times a column `w + e`, where `e` is the unit vector at `j`, is the row times `w`
    plus the row's entry at `j`. -/
theorem sum_mul_add_indicator {κ : Type*} [Fintype κ] [DecidableEq κ] (h w e : κ → EReal) (j : κ)
    (hh : ∀ k, IsReal (h k)) (hw : ∀ k, IsReal (w k)) (he : ∀ k, e k = if k = j then 1 else 0) :
    ∑ k, h k * (w k + e k) = (∑ k, h k * w k) + h j := by
  choose hr hhr using hh
  choose wr hwr using hw
  have h1 : ∀ k, h k * (w k + e k) = h k * w k + (if k = j then h k else 0) := by
    intro k
    rw [he k, hhr k, hwr k]
    by_cases hk : k = j
    · simp only [hk, if_true]
      rw [← EReal.coe_one, ← EReal.coe_add, ← EReal.coe_mul, ← EReal.coe_mul, ← EReal.coe_add]
      congr 1; ring
    · simp only [hk, if_false, add_zero]
  simp only [h1]
  rw [Finset.sum_add_distrib, Finset.sum_ite_eq' Finset.univ j h]
  simp

end ErealAlgebra

end
-- ==== Proof.LibHostIndexingReal.lean ====
/-
  The host's gather and accumulating scatter keep an array of real numbers real, at the ideal instance.

  `stablehlo.gather` reads, at every result index, ONE element of its operand (the start index read signed and clamped so
  that the slice fits), so a gather of an array of real numbers holds real numbers whatever the integer indices are.
  An accumulating float scatter is, at the ideal instance, each operand element plus the finite sum of the update elements
  whose index lands on it (an update landing outside the operand contributes nothing), so it too holds real numbers when
  the operand and the updates do — again whatever the integer indices are. Together: a segment sum of rows gathered from a
  finite table is finite, with no precondition on the edge lists.
-/
import proofs.«131490_j2448131358806_2_alg».proof.Proof.LibErealAlgebra
import Idealize.ShloMosaic.PureOps.Contract
import Idealize.ShloMosaic.PureOps.ShapeOps
import Idealize.ShloMosaic.PureOps.Ideal

noncomputable section

namespace ErealAlgebra

open Idealize.ShloMosaic

/-- A gather of real numbers is real, at every result index and for every array of start indices. -/
theorem gather_isReal {s si t : Shape} {w : Nat} (d : GatherDims s si t) (x : s.Idx → EReal) (idx : IVec si w)
    (hx : ∀ i, IsReal (x i)) (j : t.Idx) : IsReal (Host.gather d x idx j) :=
  hx _

/-- An accumulating scatter of real updates into a real operand is real, at every index and for every array of scatter
    indices. -/
theorem scatterAdd_isReal {s si u : Shape} {w : Nat} {φ : FTy} (d : ScatterDims s si u) (x : FVec Ideal s φ) (idx : IVec si w)
    (upd : FVec Ideal u φ) (hx : ∀ i, IsReal (x i)) (hu : ∀ j, IsReal (upd j)) (i : s.Idx) :
    IsReal (Host.scatterAdd d x idx upd i) := by
  show IsReal (x i + ∑ j ∈ Finset.univ.filter (fun j => d.resultIdx? j idx = some i), upd j)
  exact (hx i).add (IsReal.sum _ _ fun j _ => hu j)

/-- A contraction of real factors — the sum over a finite index type of products — is real: every element of a matrix
    product of real matrices. -/
theorem sum_mul_isReal {κ : Type*} [Fintype κ] (l r : κ → EReal) (hl : ∀ k, IsReal (l k)) (hr : ∀ k, IsReal (r k)) :
    IsReal (∑ k, l k * r k) :=
  IsReal.sum _ _ fun k _ => (hl k).mul (hr k)

end ErealAlgebra

end
-- ==== Proof.LibMatProd.lean ====
/-
  The matrix product as one whole-array function, and the two spellings of it at the ideal instance.

  `matProd x w` is the `[P, Q]` array whose entry `(p, q)` is `∑ k, x (p, k) · w (k, q)`. A host `dot_general` with
  plain dimension numbers (rows × contraction times contraction × columns, no batch axis) IS this function of its two
  operands, and so is a `tpu.matmul` into a zero accumulator. The product of two arrays of real numbers holds real
  numbers, and row `p` of the product depends on row `p` of the left operand only.
-/
import proofs.«131490_j2448131358806_2_alg».proof.Proof.LibPlainDot
import proofs.«131490_j2448131358806_2_alg».proof.Proof.LibErealAlgebra
import proofs.«131490_j2448131358806_2_alg».proof.Proof.LibHostIndexingReal

noncomputable section

namespace MatProd

open Idealize.ShloMosaic Idealize.ShloMosaic.ValueIdx PlainDot ErealAlgebra

variable {P K Q : Nat}

/-- The `[P, K] × [K, Q]` product, entry by entry. -/
def matProd (x : (⟨2, ![P, K]⟩ : Shape).Idx → EReal) (w : (⟨2, ![K, Q]⟩ : Shape).Idx → EReal) :
    (⟨2, ![P, Q]⟩ : Shape).Idx → EReal :=
  fun i => ∑ k : Fin K, x (ix2 (i 0) k) * w (ix2 k (i 1))

theorem matProd_apply (x : (⟨2, ![P, K]⟩ : Shape).Idx → EReal) (w : (⟨2, ![K, Q]⟩ : Shape).Idx → EReal) (p : Fin P) (q : Fin Q) :
    matProd x w (ix2 p q) = ∑ k : Fin K, x (ix2 p k) * w (ix2 k q) := rfl

variable {d : DotDims ⟨2, ![P, K]⟩ ⟨2, ![K, Q]⟩ ⟨2, ![P, Q]⟩}

/-- The host's plain `dot_general` is the product. -/
theorem dotGeneral_eq (h : IsPlain d) {φ₁ φ₂ : FTy} (sched : HostSchedule) (l : FVec Ideal ⟨2, ![P, K]⟩ φ₁)
    (r : FVec Ideal ⟨2, ![K, Q]⟩ φ₂) :
    FloatOps.dotGeneral d none sched l r = matProd l r := by
  funext i
  obtain ⟨p, q, rfl⟩ : ∃ (p : Fin P) (q : Fin Q), i = ix2 p q := ⟨i 0, i 1, eq_ix2 i⟩
  exact dotGeneral_apply h sched l r p q

/-- A product of arrays of real numbers holds real numbers. -/
theorem matProd_isReal (x : (⟨2, ![P, K]⟩ : Shape).Idx → EReal) (w : (⟨2, ![K, Q]⟩ : Shape).Idx → EReal)
    (hx : ∀ i, IsReal (x i)) (hw : ∀ i, IsReal (w i)) (i : (⟨2, ![P, Q]⟩ : Shape).Idx) : IsReal (matProd x w i) :=
  sum_mul_isReal _ _ (fun _ => hx _) (fun _ => hw _)

end MatProd

end
-- ==== Proof.KernelRegions.lean ====
/-
  What each of the kernel's two matrix-product regions leaves in its output array.

  Each region tiles the node axis into ten blocks of 5000 rows. At grid point `t` the body loads rows
  `[5000 t, 5000 t + 5000)` of the left operand and the whole right operand, multiplies them into a zero accumulator and
  stores the 5000 result rows; the point's write-back puts them at rows `[5000 t, 5000 t + 5000)` of the output array.
  Row `r` of a matrix product depends on row `r` of the left operand only, so block `t` of the output is block `t` of the
  whole product `matProd x w`; the ten blocks cover every row (row `r` is in block `r / 5000`), so the array ends holding
  the whole product.
-/
import proofs.«131490_j2448131358806_2_alg».proof.Proof.Gen.KernelIdeal.Frame
import proofs.«131490_j2448131358806_2_alg».proof.Proof.LibMatProd
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL.Sem MatProd
open Idealize.ShloMosaic.Pipeline (Dat)

theorem hz : (![0, 0] : Fin 2 → Nat) = fun _ => 0 := funext fun a => by fin_cases a <;> rfl

variable (V : (c : Dev nD) → (b : Ref sig .tc) → Buf (Elt Ideal) ((c : Thread nD τ).loc b))

/-! ## Region 0: `x · W1` -/

theorem plain0 : PlainDot.IsPlain dot_S5000x256_S256x256_S5000x256_1_0_0_1_n_n := ⟨rfl, rfl, rfl, rfl, rfl, rfl⟩

/-- The body's stored value at `(p, q)`: the sum over `k` of the loaded left block at `(p, k)` times the loaded right block at
    `(k, q)` (the narrowing of the left block is the identity on extended reals; the casts are to the blocks' own shapes). -/
theorem pay0_apply (x0 : Vec Ideal S5000x256 .f32) (x1 : Vec Ideal S256x256 .bf16) (p : Fin 5000) (q : Fin 256) :
    k0_pay1 x0 x1 (ix2 p q) = ∑ k : Fin 256, x0 (ix2 p k) * x1 (ix2 k q) := by
  unfold k0_pay1
  rw [shapeCast_self]
  exact PlainDot.matmul_zero_apply plain0 _ _ p q

/-- The printed index maps, decided over the grid: the left operand's and the output's blocks move together down the rows,
    block `t` at point `t`; the right operand's block stays. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem row_lt0 (t : Fin cfg0.N) (p : Fin 5000) : t.val * 5000 + p.val < 50000 := by
  have h1 := t.isLt
  have hN : cfg0.N = 10 := N_0
  have h2 := p.isLt
  omega

/-- WHAT POINT `t` WRITES BACK is block `t` of the whole product of the arrays as the region finds them. -/
theorem flushed0_eq (c : Dev nD) (t : Fin cfg0.N) :
    (dat0 V c).flushed 2 t = ((cfg0.win 2).blk t).view.read (Elt Ideal)
      (matProd (P := 50000) (K := 256) (Q := 256) (V c main_arg0 : S50000x256.Idx → EReal) (V c main_v17 : S256x256.Idx → EReal)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x256) hz]
  funext j
  obtain ⟨p, q, rfl⟩ : ∃ (p : Fin 5000) (q : Fin 256), j = ix2 p q := ⟨j 0, j 1, eq_ix2 j⟩
  show k0_pay1 (iblk0 V c 0 t) (iblk0 V c 1 t) (ix2 p q)
    = matProd (P := 50000) (K := 256) (Q := 256) (V c main_arg0 : S50000x256.Idx → EReal) (V c main_v17 : S256x256.Idx → EReal)
        (((cfg0.win 2).blk t).view.emb (ix2 p q))
  refine (pay0_apply _ _ p q).trans ?_
  obtain ⟨e0, e1, e2, e3, e4, e5⟩ := idx_facts0 t
  have hemb : ((cfg0.win 2).blk t).view.emb (ix2 p q) = ix2 (n0 := 50000) (n1 := 256) ⟨t.val * 5000 + p.val, row_lt0 t p⟩ q := by
    funext a; apply Fin.ext
    match a with
    | ⟨0, _⟩ => show win0_2.index t (0 : Fin 2) * 5000 + 1 * p.val = t.val * 5000 + p.val; omega
    | ⟨1, _⟩ => show win0_2.index t (1 : Fin 2) * 256 + 1 * q.val = q.val; omega
  rw [hemb, matProd_apply]
  refine Finset.sum_congr rfl fun k _ => ?_
  have hl : ((cfg0.win 0).blk t).view.emb (ix2 p k) = ix2 (n0 := 50000) (n1 := 256) ⟨t.val * 5000 + p.val, row_lt0 t p⟩ k := by
    funext a; apply Fin.ext
    match a with
    | ⟨0, _⟩ => show win0_0.index t (0 : Fin 2) * 5000 + 1 * p.val = t.val * 5000 + p.val; omega
    | ⟨1, _⟩ => show win0_0.index t (1 : Fin 2) * 256 + 1 * k.val = k.val; omega
  have hr : ((cfg0.win 1).blk t).view.emb (ix2 k q) = ix2 (n0 := 256) (n1 := 256) k q := by
    funext a; apply Fin.ext
    match a with
    | ⟨0, _⟩ => show win0_1.index t (0 : Fin 2) * 256 + 1 * k.val = k.val; omega
    | ⟨1, _⟩ => show win0_1.index t (1 : Fin 2) * 256 + 1 * q.val = q.val; omega
  congr 1
  · show (V c main_arg0 : S50000x256.Idx → EReal) (((cfg0.win 0).blk t).view.emb (ix2 p k)) = _
    rw [hl]
  · show (V c main_v17 : S256x256.Idx → EReal) (((cfg0.win 1).blk t).view.emb (ix2 k q)) = _
    rw [hr]

/-- An index of the output array is in point `t`'s block iff each coordinate is in the block's range on its axis. -/
theorem mem_blk0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v18).slice (win0_2.rect t)).set ↔ _
  rw [View.set_slice_whole, Rect.mem_set_unit]
  exact Iff.rfl

/-- THE OUTPUT ARRAY after the region: the whole product of the arrays the region found. Row `r` is in block `r / 5000`. -/
theorem region0_out (c : Dev nD) :
    (dat0 V c).arrAt 2 cfg0.N
      = matProd (P := 50000) (K := 256) (Q := 256) (V c main_arg0 : S50000x256.Idx → EReal) (V c main_v17 : S256x256.Idx → EReal) :=
  (dat0 V c).arrAt_eq_of_cover 2 _ (fun t _ => flushed0_eq V c t) fun (i : S50000x256.Idx) => by
    have hi0 : (i 0).val < 50000 := (i 0).isLt
    have hi1 : (i 1).val < 256 := (i 1).isLt
    have ht : (i 0).val / 5000 < cfg0.N := by rw [show cfg0.N = 10 from N_0]; omega
    obtain ⟨e0, e1, e2, e3, e4, e5⟩ := idx_facts0 ⟨(i 0).val / 5000, ht⟩
    have e4' : win0_2.index ⟨(i 0).val / 5000, ht⟩ (0 : Fin 2) = (i 0).val / 5000 := e4
    refine ⟨⟨(i 0).val / 5000, ht⟩, flush0_2 _, ?_⟩
    rw [mem_blk0]
    intro a
    match a with
    | ⟨0, _⟩ => show win0_2.index ⟨(i 0).val / 5000, ht⟩ (0 : Fin 2) * 5000 ≤ (i 0).val ∧ (i 0).val < win0_2.index ⟨(i 0).val / 5000, ht⟩ (0 : Fin 2) * 5000 + 5000; omega
    | ⟨1, _⟩ => show win0_2.index ⟨(i 0).val / 5000, ht⟩ (1 : Fin 2) * 256 ≤ (i 1).val ∧ (i 1).val < win0_2.index ⟨(i 0).val / 5000, ht⟩ (1 : Fin 2) * 256 + 256; omega

/-! ## Region 1: `h · W2` -/

theorem plain1 : PlainDot.IsPlain dot_S5000x256_S256x128_S5000x128_1_0_0_1_n_n := ⟨rfl, rfl, rfl, rfl, rfl, rfl⟩

/-- The body's stored value at `(p, q)`: the sum over `k` of the loaded left block at `(p, k)` times the loaded right block at
    `(k, q)` (the narrowing of the left block is the identity on extended reals; the casts are to the blocks' own shapes). -/
theorem pay1_apply (x0 : Vec Ideal S5000x256 .f32) (x1 : Vec Ideal S256x128 .bf16) (p : Fin 5000) (q : Fin 128) :
    k1_pay1 x0 x1 (ix2 p q) = ∑ k : Fin 256, x0 (ix2 p k) * x1 (ix2 k q) := by
  unfold k1_pay1
  rw [shapeCast_self, shapeCast_self]
  exact PlainDot.matmul_zero_apply plain1 _ _ p q

/-- The printed index maps, decided over the grid: the left operand's and the output's blocks move together down the rows,
    block `t` at point `t`; the right operand's block stays. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem row_lt1 (t : Fin cfg1.N) (p : Fin 5000) : t.val * 5000 + p.val < 50000 := by
  have h1 := t.isLt
  have hN : cfg1.N = 10 := N_1
  have h2 := p.isLt
  omega

/-- WHAT POINT `t` WRITES BACK is block `t` of the whole product of the arrays as the region finds them. -/
theorem flushed1_eq (c : Dev nD) (t : Fin cfg1.N) :
    (dat1 V c).flushed 2 t = ((cfg1.win 2).blk t).view.read (Elt Ideal)
      (matProd (P := 50000) (K := 256) (Q := 128) (V c main_v38 : S50000x256.Idx → EReal) (V c main_v39 : S256x128.Idx → EReal)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x128) hz]
  funext j
  obtain ⟨p, q, rfl⟩ : ∃ (p : Fin 5000) (q : Fin 128), j = ix2 p q := ⟨j 0, j 1, eq_ix2 j⟩
  show k1_pay1 (iblk1 V c 0 t) (iblk1 V c 1 t) (ix2 p q)
    = matProd (P := 50000) (K := 256) (Q := 128) (V c main_v38 : S50000x256.Idx → EReal) (V c main_v39 : S256x128.Idx → EReal)
        (((cfg1.win 2).blk t).view.emb (ix2 p q))
  refine (pay1_apply _ _ p q).trans ?_
  obtain ⟨e0, e1, e2, e3, e4, e5⟩ := idx_facts1 t
  have hemb : ((cfg1.win 2).blk t).view.emb (ix2 p q) = ix2 (n0 := 50000) (n1 := 128) ⟨t.val * 5000 + p.val, row_lt1 t p⟩ q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  rw [hemb, matProd_apply]
  refine Finset.sum_congr rfl fun k _ => ?_
  have hl : ((cfg1.win 0).blk t).view.emb (ix2 p k) = ix2 (n0 := 50000) (n1 := 256) ⟨t.val * 5000 + p.val, row_lt1 t p⟩ k := by
    funext a; apply Fin.ext
    match a with
    | ⟨0, _⟩ => show win1_0.index t (0 : Fin 2) * 5000 + 1 * p.val = t.val * 5000 + p.val; omega
    | ⟨1, _⟩ => show win1_0.index t (1 : Fin 2) * 256 + 1 * k.val = k.val; omega
  have hr : ((cfg1.win 1).blk t).view.emb (ix2 k q) = ix2 (n0 := 256) (n1 := 128) k q := by
    funext a; apply Fin.ext
    match a with
    | ⟨0, _⟩ => show win1_1.index t (0 : Fin 2) * 256 + 1 * k.val = k.val; omega
    | ⟨1, _⟩ => show win1_1.index t (1 : Fin 2) * 128 + 1 * q.val = q.val; omega
  congr 1
  · show (V c main_v38 : S50000x256.Idx → EReal) (((cfg1.win 0).blk t).view.emb (ix2 p k)) = _
    rw [hl]
  · show (V c main_v39 : S256x128.Idx → EReal) (((cfg1.win 1).blk t).view.emb (ix2 k q)) = _
    rw [hr]

/-- An index of the output array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v40).slice (win1_2.rect t)).set ↔ _
  rw [View.set_slice_whole, Rect.mem_set_unit]
  exact Iff.rfl

/-- THE OUTPUT ARRAY after the region: the whole product of the arrays the region found. Row `r` is in block `r / 5000`. -/
theorem region1_out (c : Dev nD) :
    (dat1 V c).arrAt 2 cfg1.N
      = matProd (P := 50000) (K := 256) (Q := 128) (V c main_v38 : S50000x256.Idx → EReal) (V c main_v39 : S256x128.Idx → EReal) :=
  (dat1 V c).arrAt_eq_of_cover 2 _ (fun t _ => flushed1_eq V c t) fun (i : S50000x128.Idx) => by
    have hi0 : (i 0).val < 50000 := (i 0).isLt
    have hi1 : (i 1).val < 128 := (i 1).isLt
    have ht : (i 0).val / 5000 < cfg1.N := by rw [show cfg1.N = 10 from N_1]; omega
    obtain ⟨e0, e1, e2, e3, e4, e5⟩ := idx_facts1 ⟨(i 0).val / 5000, ht⟩
    have e4' : win1_2.index ⟨(i 0).val / 5000, ht⟩ (0 : Fin 2) = (i 0).val / 5000 := e4
    refine ⟨⟨(i 0).val / 5000, ht⟩, flush1_2 _, ?_⟩
    rw [mem_blk1]
    intro a
    match a with
    | ⟨0, _⟩ => show win1_2.index ⟨(i 0).val / 5000, ht⟩ (0 : Fin 2) * 5000 ≤ (i 0).val ∧ (i 0).val < win1_2.index ⟨(i 0).val / 5000, ht⟩ (0 : Fin 2) * 5000 + 5000; omega
    | ⟨1, _⟩ => show win1_2.index ⟨(i 0).val / 5000, ht⟩ (1 : Fin 2) * 128 ≤ (i 1).val ∧ (i 1).val < win1_2.index ⟨(i 0).val / 5000, ht⟩ (1 : Fin 2) * 128 + 128; omega

end Cert.KernelIdeal.RegionValue

end
-- ==== Proof.KernelHost.lean ====
/-
  The idealized kernel's result as one function of its six arguments.

  Between and around its two matrix-product regions @main computes, on the host: the edge lists with self-loops
  (`srcArr`, `dstArr`: a row of the edge-index array followed by `0 … 49999`), the in-degree of every node as a segment
  sum of ones over the destinations, its inverse square root `dinvArr` (`0` where the degree is not positive), and per
  layer the aggregation `agg`: the product's rows scaled by `dinv`, gathered at the sources (read at indices normalised
  by "add 50000 if negative"), summed at the raw destinations, and scaled by `dinv` again; then the bias, and a `max` with
  zero after the first layer.

  The buffer contents at the nine segment boundaries are a fold from the launch memory. Read stage by stage — a stretch of
  host operations applies its operations' functions, a region leaves the whole product of the two arrays it found — the
  result's buffer at the last boundary is `value` of the arguments' launch contents.
-/
import proofs.«131490_j2448131358806_2_alg».proof.Proof.Gen.KernelIdeal.Frame
import proofs.«131490_j2448131358806_2_alg».proof.Proof.KernelRegions
import Idealize.ShloMosaic.Lib.StableHlo.Run
import Idealize.ShloMosaic.PureOps.Ideal

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo MatProd

/-! ## The functions the host operations compute -/

/-- The edges' sources: row 0 of the edge-index array, then one self-loop per node. -/
def srcArr (x1 : IVec S2x800000 32) : IVec S850000 32 :=
  concatenate S850000 0 [⟨S800000, shapeCast _ (extractStridedSlice S1x800000 ![0, 0] x1 slices_S2x800000_S1x800000_0_0) shapeCasts_S1x800000_S800000⟩,
    ⟨S50000, iotaInDim S50000 32 0⟩] concatenates_S800000_S50000_S850000_d0
/-- The edges' destinations: row 1 of the edge-index array, then one self-loop per node. -/
def dstArr (x1 : IVec S2x800000 32) : IVec S850000 32 :=
  concatenate S850000 0 [⟨S800000, shapeCast _ (extractStridedSlice S1x800000 ![1, 0] x1 slices_S2x800000_S1x800000_1_0) shapeCasts_S1x800000_S800000⟩,
    ⟨S50000, iotaInDim S50000 32 0⟩] concatenates_S800000_S50000_S850000_d0
/-- An index array as a column of start indices, as it stands. -/
def rawCol (d : IVec S850000 32) : IVec S850000x1 32 := broadcastInDim S850000x1 ![0] bcast_S850000_S850000x1_0 d
/-- An index array as a column of start indices, a negative index first moved up by the table's extent. -/
def normCol (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)
/-- Every node's in-degree: the segment sum of ones over the destinations. -/
def degArr (dst : IVec S850000 32) : FVec Ideal S50000 .f32 :=
  Host.scatterAdd scatter_S50000_S850000x1_S850000_n_0_0_1 (broadcastInDim S50000 ![] bcast_S_S50000 (constant S_ .f32 0x00000000#32))
    (rawCol dst) (broadcastInDim S850000 ![] bcast_S_S850000 (constant S_ .f32 0x3F800000#32))
/-- `1 / sqrt deg` where the degree is positive, `0` elsewhere. -/
def dinvOf (deg : FVec Ideal S50000 .f32) : FVec Ideal S50000 .f32 :=
  select (cmpf .ogt deg (broadcastInDim S50000 ![] bcast_S_S50000 (constant S_ .f32 0x00000000#32)))
    (Host.divf (broadcastInDim S50000 ![] bcast_S_S50000 (constant S_ .f32 0x3F800000#32)) (Host.sqrt deg))
    (broadcastInDim S50000 ![] bcast_S_S50000 (id (constant S_ .f32 0x00000000#32)))
def dinvArr (x1 : IVec S2x800000 32) : FVec Ideal S50000 .f32 := dinvOf (degArr (dstArr x1))
/-- The weights as the regions read them: through a change of float format, the identity on extended reals. -/
def castW256 (w : FVec Ideal S256x256 .f32) : FVec Ideal S256x256 .bf16 := truncf .bf16 w bitsLt_bf16_f32
def castW128 (w : FVec Ideal S256x128 .f32) : FVec Ideal S256x128 .bf16 := truncf .bf16 w bitsLt_bf16_f32
/-- The scalar zero the `where` falls back to. -/
def zeroScalar : FVec Ideal S_ .f32 := constant S_ .f32 0x00000000#32

/-- `dinv` spread along the rows of an `[50000, 256]` table: entry `(v, c)` is `dinv v`. -/
def spread256 (dinv : FVec Ideal S50000 .f32) : FVec Ideal S50000x256 .f32 :=
  broadcastInDim S50000x256 ![0, 1] bcast_S50000x1_S50000x256_0_1 (broadcastInDim S50000x1 ![0] bcast_S50000_S50000x1_0 dinv)
/-- The bias spread down the rows: entry `(v, c)` is `b c`. -/
def bias256 (b : FVec Ideal S256 .f32) : FVec Ideal S50000x256 .f32 :=
  broadcastInDim S50000x256 ![0, 1] bcast_S1x256_S50000x256_0_1 (broadcastInDim S1x256 ![1] bcast_S256_S1x256_1 b)
/-- The zero table a segment sum starts from. -/
def zeros256 : FVec Ideal S50000x256 .f32 :=
  broadcastInDim S50000x256 ![] bcast_S_S50000x256 (constant S_ .f32 0x00000000#32)
/-- The kernel's aggregation: scale the table's rows by `dinv`, gather the rows at the edges' sources, add them up at the
    edges' destinations, scale the summed rows by `dinv`. -/
def agg256 (h : FVec Ideal S50000x256 .f32) (dinv : FVec Ideal S50000 .f32) (src dst : IVec S850000 32) : FVec Ideal S50000x256 .f32 :=
  mulf (Host.scatterAdd scatter_S50000x256_S850000x1_S850000x256_1_0_0_1 zeros256 (rawCol dst)
    (Host.gather gather_S50000x256_S850000x1_S850000x256_1_0_n_n_0_1_1256 (mulf h (spread256 dinv)) (normCol src))) (spread256 dinv)
/-- One layer after its matrix product: the aggregation plus the bias. -/
def layer256 (h : FVec Ideal S50000x256 .f32) (dinv : FVec Ideal S50000 .f32) (src dst : IVec S850000 32) (b : FVec Ideal S256 .f32) :
    FVec Ideal S50000x256 .f32 :=
  addf (agg256 h dinv src dst) (bias256 b)

/-- `dinv` spread along the rows of an `[50000, 128]` table: entry `(v, c)` is `dinv v`. -/
def spread128 (dinv : FVec Ideal S50000 .f32) : FVec Ideal S50000x128 .f32 :=
  broadcastInDim S50000x128 ![0, 1] bcast_S50000x1_S50000x128_0_1 (broadcastInDim S50000x1 ![0] bcast_S50000_S50000x1_0 dinv)
/-- The bias spread down the rows: entry `(v, c)` is `b c`. -/
def bias128 (b : FVec Ideal S128 .f32) : FVec Ideal S50000x128 .f32 :=
  broadcastInDim S50000x128 ![0, 1] bcast_S1x128_S50000x128_0_1 (broadcastInDim S1x128 ![1] bcast_S128_S1x128_1 b)
/-- The zero table a segment sum starts from. -/
def zeros128 : FVec Ideal S50000x128 .f32 :=
  broadcastInDim S50000x128 ![] bcast_S_S50000x128 (constant S_ .f32 0x00000000#32)
/-- The kernel's aggregation: scale the table's rows by `dinv`, gather the rows at the edges' sources, add them up at the
    edges' destinations, scale the summed rows by `dinv`. -/
def agg128 (h : FVec Ideal S50000x128 .f32) (dinv : FVec Ideal S50000 .f32) (src dst : IVec S850000 32) : FVec Ideal S50000x128 .f32 :=
  mulf (Host.scatterAdd scatter_S50000x128_S850000x1_S850000x128_1_0_0_1 zeros128 (rawCol dst)
    (Host.gather gather_S50000x128_S850000x1_S850000x128_1_0_n_n_0_1_1128 (mulf h (spread128 dinv)) (normCol src))) (spread128 dinv)
/-- One layer after its matrix product: the aggregation plus the bias. -/
def layer128 (h : FVec Ideal S50000x128 .f32) (dinv : FVec Ideal S50000 .f32) (src dst : IVec S850000 32) (b : FVec Ideal S128 .f32) :
    FVec Ideal S50000x128 .f32 :=
  addf (agg128 h dinv src dst) (bias128 b)

/-- The whole program: two layers, a `max` with zero between them; the weights pass through a change of float format,
    which is the identity on extended reals. -/
def value (x0 : FVec Ideal S50000x256 .f32) (x1 : IVec S2x800000 32) (x2 : FVec Ideal S256x256 .f32) (x3 : FVec Ideal S256 .f32)
    (x4 : FVec Ideal S256x128 .f32) (x5 : FVec Ideal S128 .f32) : FVec Ideal S50000x128 .f32 :=
  layer128 (matProd (P := 50000) (K := 256) (Q := 128)
      (maximumf (layer256 (matProd (P := 50000) (K := 256) (Q := 256) x0 (castW256 x2)) (dinvArr x1) (srcArr x1) (dstArr x1) x3) zeros256)
      (castW128 x4))
    (dinvArr x1) (srcArr x1) (dstArr x1) x5

/-! ## Each stretch of host operations, from ANY contents `V` of the buffers

What a stretch leaves in the buffers it writes, as the operations' functions of what `V` holds in the buffers it reads;
and that it leaves the other buffers alone. -/

section Stretches
variable (V : Valuation τ sig (Elt Ideal))

/-! ### The stretch `hostOps0` -/

set_option maxHeartbeats 2000000 in
theorem s0_main_v3 : (after hostOps0 V (Proc.devRef .tc main_v3) : IVec S850000 32) = srcArr (V (Proc.devRef .tc main_arg1) : IVec S2x800000 32) := by
  unfold srcArr
  after_results_simp <;> rfl

set_option maxHeartbeats 2000000 in
theorem s0_main_v6 : (after hostOps0 V (Proc.devRef .tc main_v6) : IVec S850000 32) = dstArr (V (Proc.devRef .tc main_arg1) : IVec S2x800000 32) := by
  unfold dstArr
  after_results_simp <;> rfl

set_option maxHeartbeats 2000000 in
theorem s0_main_v12 : (after hostOps0 V (Proc.devRef .tc main_v12) : IVec S50000 1) = cmpf .ogt (degArr (dstArr (V (Proc.devRef .tc main_arg1) : IVec S2x800000 32))) (broadcastInDim S50000 ![] bcast_S_S50000 (constant S_ .f32 0x00000000#32)) := by
  unfold degArr dstArr rawCol
  after_results_simp <;> rfl

set_option maxHeartbeats 2000000 in
theorem s0_main_v15 : (after hostOps0 V (Proc.devRef .tc main_v15) : FVec Ideal S50000 .f32) = Host.divf (broadcastInDim S50000 ![] bcast_S_S50000 (constant S_ .f32 0x3F800000#32)) (Host.sqrt (degArr (dstArr (V (Proc.devRef .tc main_arg1) : IVec S2x800000 32)))) := by
  unfold degArr dstArr rawCol
  after_results_simp <;> rfl

set_option maxHeartbeats 2000000 in
theorem s0_main_cst_3 : (after hostOps0 V (Proc.devRef .tc main_cst_3) : FVec Ideal S_ .f32) = zeroScalar := by
  unfold zeroScalar
  after_results_simp <;> rfl
theorem s0_keeps_main_arg0 : after hostOps0 V (Proc.devRef .tc main_arg0) = V (Proc.devRef .tc main_arg0) := by after_results_simp
theorem s0_keeps_main_arg2 : after hostOps0 V (Proc.devRef .tc main_arg2) = V (Proc.devRef .tc main_arg2) := by after_results_simp
theorem s0_keeps_main_arg3 : after hostOps0 V (Proc.devRef .tc main_arg3) = V (Proc.devRef .tc main_arg3) := by after_results_simp
theorem s0_keeps_main_arg4 : after hostOps0 V (Proc.devRef .tc main_arg4) = V (Proc.devRef .tc main_arg4) := by after_results_simp
theorem s0_keeps_main_arg5 : after hostOps0 V (Proc.devRef .tc main_arg5) = V (Proc.devRef .tc main_arg5) := by after_results_simp

/-! ### The stretch `hostOps0_1` -/

set_option maxHeartbeats 2000000 in
theorem s01_main_v16 : (after hostOps0_1 V (Proc.devRef .tc main_v16) : FVec Ideal S50000 .f32) = select (V (Proc.devRef .tc main_v12) : IVec S50000 1) (V (Proc.devRef .tc main_v15) : FVec Ideal S50000 .f32) (broadcastInDim S50000 ![] bcast_S_S50000 (id (V (Proc.devRef .tc main_cst_3) : FVec Ideal S_ .f32))) := by
  after_results_simp <;> rfl
theorem s01_keeps_main_v3 : after hostOps0_1 V (Proc.devRef .tc main_v3) = V (Proc.devRef .tc main_v3) := by after_results_simp
theorem s01_keeps_main_v6 : after hostOps0_1 V (Proc.devRef .tc main_v6) = V (Proc.devRef .tc main_v6) := by after_results_simp
theorem s01_keeps_main_arg0 : after hostOps0_1 V (Proc.devRef .tc main_arg0) = V (Proc.devRef .tc main_arg0) := by after_results_simp
theorem s01_keeps_main_arg2 : after hostOps0_1 V (Proc.devRef .tc main_arg2) = V (Proc.devRef .tc main_arg2) := by after_results_simp
theorem s01_keeps_main_arg3 : after hostOps0_1 V (Proc.devRef .tc main_arg3) = V (Proc.devRef .tc main_arg3) := by after_results_simp
theorem s01_keeps_main_arg4 : after hostOps0_1 V (Proc.devRef .tc main_arg4) = V (Proc.devRef .tc main_arg4) := by after_results_simp
theorem s01_keeps_main_arg5 : after hostOps0_1 V (Proc.devRef .tc main_arg5) = V (Proc.devRef .tc main_arg5) := by after_results_simp

/-! ### The stretch `hostOps0_2` -/

set_option maxHeartbeats 2000000 in
theorem s02_main_v17 : (after hostOps0_2 V (Proc.devRef .tc main_v17) : FVec Ideal S256x256 .bf16) = castW256 (V (Proc.devRef .tc main_arg2) : FVec Ideal S256x256 .f32) := by
  unfold castW256
  after_results_simp <;> rfl
theorem s02_keeps_main_v16 : after hostOps0_2 V (Proc.devRef .tc main_v16) = V (Proc.devRef .tc main_v16) := by after_results_simp
theorem s02_keeps_main_v3 : after hostOps0_2 V (Proc.devRef .tc main_v3) = V (Proc.devRef .tc main_v3) := by after_results_simp
theorem s02_keeps_main_v6 : after hostOps0_2 V (Proc.devRef .tc main_v6) = V (Proc.devRef .tc main_v6) := by after_results_simp
theorem s02_keeps_main_arg0 : after hostOps0_2 V (Proc.devRef .tc main_arg0) = V (Proc.devRef .tc main_arg0) := by after_results_simp
theorem s02_keeps_main_arg3 : after hostOps0_2 V (Proc.devRef .tc main_arg3) = V (Proc.devRef .tc main_arg3) := by after_results_simp
theorem s02_keeps_main_arg4 : after hostOps0_2 V (Proc.devRef .tc main_arg4) = V (Proc.devRef .tc main_arg4) := by after_results_simp
theorem s02_keeps_main_arg5 : after hostOps0_2 V (Proc.devRef .tc main_arg5) = V (Proc.devRef .tc main_arg5) := by after_results_simp

/-! ### The stretch `hostOps1` -/

set_option maxHeartbeats 2000000 in
theorem s1_main_v37 : (after hostOps1 V (Proc.devRef .tc main_v37) : FVec Ideal S50000x256 .f32) = layer256 (V (Proc.devRef .tc main_v18) : FVec Ideal S50000x256 .f32) (V (Proc.devRef .tc main_v16) : FVec Ideal S50000 .f32) (V (Proc.devRef .tc main_v3) : IVec S850000 32) (V (Proc.devRef .tc main_v6) : IVec S850000 32) (V (Proc.devRef .tc main_arg3) : FVec Ideal S256 .f32) := by
  unfold layer256 agg256 spread256 bias256 zeros256 rawCol normCol
  after_results_simp <;> rfl
theorem s1_keeps_main_v16 : after hostOps1 V (Proc.devRef .tc main_v16) = V (Proc.devRef .tc main_v16) := by after_results_simp
theorem s1_keeps_main_v3 : after hostOps1 V (Proc.devRef .tc main_v3) = V (Proc.devRef .tc main_v3) := by after_results_simp
theorem s1_keeps_main_v6 : after hostOps1 V (Proc.devRef .tc main_v6) = V (Proc.devRef .tc main_v6) := by after_results_simp
theorem s1_keeps_main_arg4 : after hostOps1 V (Proc.devRef .tc main_arg4) = V (Proc.devRef .tc main_arg4) := by after_results_simp
theorem s1_keeps_main_arg5 : after hostOps1 V (Proc.devRef .tc main_arg5) = V (Proc.devRef .tc main_arg5) := by after_results_simp

/-! ### The stretch `hostOps1_1` -/

set_option maxHeartbeats 2000000 in
theorem s11_main_v38 : (after hostOps1_1 V (Proc.devRef .tc main_v38) : FVec Ideal S50000x256 .f32) = maximumf (V (Proc.devRef .tc main_v37) : FVec Ideal S50000x256 .f32) zeros256 := by
  unfold zeros256
  after_results_simp <;> rfl
theorem s11_keeps_main_v16 : after hostOps1_1 V (Proc.devRef .tc main_v16) = V (Proc.devRef .tc main_v16) := by after_results_simp
theorem s11_keeps_main_v3 : after hostOps1_1 V (Proc.devRef .tc main_v3) = V (Proc.devRef .tc main_v3) := by after_results_simp
theorem s11_keeps_main_v6 : after hostOps1_1 V (Proc.devRef .tc main_v6) = V (Proc.devRef .tc main_v6) := by after_results_simp
theorem s11_keeps_main_arg4 : after hostOps1_1 V (Proc.devRef .tc main_arg4) = V (Proc.devRef .tc main_arg4) := by after_results_simp
theorem s11_keeps_main_arg5 : after hostOps1_1 V (Proc.devRef .tc main_arg5) = V (Proc.devRef .tc main_arg5) := by after_results_simp

/-! ### The stretch `hostOps1_2` -/

set_option maxHeartbeats 2000000 in
theorem s12_main_v39 : (after hostOps1_2 V (Proc.devRef .tc main_v39) : FVec Ideal S256x128 .bf16) = castW128 (V (Proc.devRef .tc main_arg4) : FVec Ideal S256x128 .f32) := by
  unfold castW128
  after_results_simp <;> rfl
theorem s12_keeps_main_v38 : after hostOps1_2 V (Proc.devRef .tc main_v38) = V (Proc.devRef .tc main_v38) := by after_results_simp
theorem s12_keeps_main_v16 : after hostOps1_2 V (Proc.devRef .tc main_v16) = V (Proc.devRef .tc main_v16) := by after_results_simp
theorem s12_keeps_main_v3 : after hostOps1_2 V (Proc.devRef .tc main_v3) = V (Proc.devRef .tc main_v3) := by after_results_simp
theorem s12_keeps_main_v6 : after hostOps1_2 V (Proc.devRef .tc main_v6) = V (Proc.devRef .tc main_v6) := by after_results_simp
theorem s12_keeps_main_arg5 : after hostOps1_2 V (Proc.devRef .tc main_arg5) = V (Proc.devRef .tc main_arg5) := by after_results_simp

/-! ### The stretch `hostOps2` -/

set_option maxHeartbeats 2000000 in
theorem s2_main_v59 : (after hostOps2 V (Proc.devRef .tc main_v59) : FVec Ideal S50000x128 .f32) = layer128 (V (Proc.devRef .tc main_v40) : FVec Ideal S50000x128 .f32) (V (Proc.devRef .tc main_v16) : FVec Ideal S50000 .f32) (V (Proc.devRef .tc main_v3) : IVec S850000 32) (V (Proc.devRef .tc main_v6) : IVec S850000 32) (V (Proc.devRef .tc main_arg5) : FVec Ideal S128 .f32) := by
  unfold layer128 agg128 spread128 bias128 zeros128 rawCol normCol
  after_results_simp <;> rfl

end Stretches

/-! ## The boundaries' contents, from the launch memory -/

section Boundaries
variable (m : (ℓ : Loc nD τ sig) → Buf (Elt Ideal) ℓ) (ρ : Dev nD → PrngReg) (c : Dev nD)

/-- The six arguments' launch contents. -/
abbrev X0 : FVec Ideal S50000x256 .f32 := m ((c : Thread nD τ).loc main_arg0)
abbrev X1 : IVec S2x800000 32 := m ((c : Thread nD τ).loc main_arg1)
abbrev X2 : FVec Ideal S256x256 .f32 := m ((c : Thread nD τ).loc main_arg2)
abbrev X3 : FVec Ideal S256 .f32 := m ((c : Thread nD τ).loc main_arg3)
abbrev X4 : FVec Ideal S256x128 .f32 := m ((c : Thread nD τ).loc main_arg4)
abbrev X5 : FVec Ideal S128 .f32 := m ((c : Thread nD τ).loc main_arg5)

/-! ### After the first stretch: the edge lists, the degree's compare and quotient -/
theorem W1_v3 : (W1 m ρ c (Proc.devRef .tc main_v3) : IVec S850000 32) = srcArr (X1 m c) :=
  s0_main_v3 (W0 m ρ c)
theorem W1_v6 : (W1 m ρ c (Proc.devRef .tc main_v6) : IVec S850000 32) = dstArr (X1 m c) :=
  s0_main_v6 (W0 m ρ c)
theorem W1_v12 : (W1 m ρ c (Proc.devRef .tc main_v12) : IVec S50000 1) = cmpf .ogt (degArr (dstArr (X1 m c))) (broadcastInDim S50000 ![] bcast_S_S50000 (constant S_ .f32 0x00000000#32)) :=
  s0_main_v12 (W0 m ρ c)
theorem W1_v15 : (W1 m ρ c (Proc.devRef .tc main_v15) : FVec Ideal S50000 .f32) = Host.divf (broadcastInDim S50000 ![] bcast_S_S50000 (constant S_ .f32 0x3F800000#32)) (Host.sqrt (degArr (dstArr (X1 m c)))) :=
  s0_main_v15 (W0 m ρ c)
theorem W1_cst_3 : (W1 m ρ c (Proc.devRef .tc main_cst_3) : FVec Ideal S_ .f32) = zeroScalar :=
  s0_main_cst_3 (W0 m ρ c)
theorem W1_arg0 : (W1 m ρ c (Proc.devRef .tc main_arg0) : FVec Ideal S50000x256 .f32) = X0 m c :=
  s0_keeps_main_arg0 (W0 m ρ c)
theorem W1_arg2 : (W1 m ρ c (Proc.devRef .tc main_arg2) : FVec Ideal S256x256 .f32) = X2 m c :=
  s0_keeps_main_arg2 (W0 m ρ c)
theorem W1_arg3 : (W1 m ρ c (Proc.devRef .tc main_arg3) : FVec Ideal S256 .f32) = X3 m c :=
  s0_keeps_main_arg3 (W0 m ρ c)
theorem W1_arg4 : (W1 m ρ c (Proc.devRef .tc main_arg4) : FVec Ideal S256x128 .f32) = X4 m c :=
  s0_keeps_main_arg4 (W0 m ρ c)
theorem W1_arg5 : (W1 m ρ c (Proc.devRef .tc main_arg5) : FVec Ideal S128 .f32) = X5 m c :=
  s0_keeps_main_arg5 (W0 m ρ c)

/-! ### After the `where`: the inverse square roots of the degrees -/
theorem W2_v16 : (W2 m ρ c (Proc.devRef .tc main_v16) : FVec Ideal S50000 .f32) = dinvArr (X1 m c) :=
  (s01_main_v16 (W1 m ρ c)).trans (by rw [W1_v12, W1_v15, W1_cst_3]; rfl)
theorem W2_v3 : (W2 m ρ c (Proc.devRef .tc main_v3) : IVec S850000 32) = srcArr (X1 m c) :=
  (s01_keeps_main_v3 (W1 m ρ c)).trans (W1_v3 m ρ c)
theorem W2_v6 : (W2 m ρ c (Proc.devRef .tc main_v6) : IVec S850000 32) = dstArr (X1 m c) :=
  (s01_keeps_main_v6 (W1 m ρ c)).trans (W1_v6 m ρ c)
theorem W2_arg0 : (W2 m ρ c (Proc.devRef .tc main_arg0) : FVec Ideal S50000x256 .f32) = X0 m c :=
  (s01_keeps_main_arg0 (W1 m ρ c)).trans (W1_arg0 m ρ c)
theorem W2_arg2 : (W2 m ρ c (Proc.devRef .tc main_arg2) : FVec Ideal S256x256 .f32) = X2 m c :=
  (s01_keeps_main_arg2 (W1 m ρ c)).trans (W1_arg2 m ρ c)
theorem W2_arg3 : (W2 m ρ c (Proc.devRef .tc main_arg3) : FVec Ideal S256 .f32) = X3 m c :=
  (s01_keeps_main_arg3 (W1 m ρ c)).trans (W1_arg3 m ρ c)
theorem W2_arg4 : (W2 m ρ c (Proc.devRef .tc main_arg4) : FVec Ideal S256x128 .f32) = X4 m c :=
  (s01_keeps_main_arg4 (W1 m ρ c)).trans (W1_arg4 m ρ c)
theorem W2_arg5 : (W2 m ρ c (Proc.devRef .tc main_arg5) : FVec Ideal S128 .f32) = X5 m c :=
  (s01_keeps_main_arg5 (W1 m ρ c)).trans (W1_arg5 m ρ c)

/-! ### Region 0's entry -/
theorem W3_v17 : (W3 m ρ c (Proc.devRef .tc main_v17) : FVec Ideal S256x256 .bf16) = castW256 (X2 m c) :=
  (s02_main_v17 (W2 m ρ c)).trans (by rw [W2_arg2])
theorem W3_v16 : (W3 m ρ c (Proc.devRef .tc main_v16) : FVec Ideal S50000 .f32) = dinvArr (X1 m c) :=
  (s02_keeps_main_v16 (W2 m ρ c)).trans (W2_v16 m ρ c)
theorem W3_v3 : (W3 m ρ c (Proc.devRef .tc main_v3) : IVec S850000 32) = srcArr (X1 m c) :=
  (s02_keeps_main_v3 (W2 m ρ c)).trans (W2_v3 m ρ c)
theorem W3_v6 : (W3 m ρ c (Proc.devRef .tc main_v6) : IVec S850000 32) = dstArr (X1 m c) :=
  (s02_keeps_main_v6 (W2 m ρ c)).trans (W2_v6 m ρ c)
theorem W3_arg0 : (W3 m ρ c (Proc.devRef .tc main_arg0) : FVec Ideal S50000x256 .f32) = X0 m c :=
  (s02_keeps_main_arg0 (W2 m ρ c)).trans (W2_arg0 m ρ c)
theorem W3_arg3 : (W3 m ρ c (Proc.devRef .tc main_arg3) : FVec Ideal S256 .f32) = X3 m c :=
  (s02_keeps_main_arg3 (W2 m ρ c)).trans (W2_arg3 m ρ c)
theorem W3_arg4 : (W3 m ρ c (Proc.devRef .tc main_arg4) : FVec Ideal S256x128 .f32) = X4 m c :=
  (s02_keeps_main_arg4 (W2 m ρ c)).trans (W2_arg4 m ρ c)
theorem W3_arg5 : (W3 m ρ c (Proc.devRef .tc main_arg5) : FVec Ideal S128 .f32) = X5 m c :=
  (s02_keeps_main_arg5 (W2 m ρ c)).trans (W2_arg5 m ρ c)

/-! ### Region 0's exit: its output array holds the product `x · W1` -/
theorem W4_v18 : (W4 m ρ c (Proc.devRef .tc main_v18) : FVec Ideal S50000x256 .f32) = matProd (P := 50000) (K := 256) (Q := 256) (X0 m c) (castW256 (X2 m c)) :=
  (W4_arr m ρ c 2).trans ((RegionValue.region0_out (V3 m ρ) c).trans (by
    show matProd (P := 50000) (K := 256) (Q := 256) (W3 m ρ c (Proc.devRef .tc main_arg0) : FVec Ideal S50000x256 .f32) (W3 m ρ c (Proc.devRef .tc main_v17) : FVec Ideal S256x256 .bf16) = _
    rw [W3_arg0, W3_v17]))
theorem W4_v16 : (W4 m ρ c (Proc.devRef .tc main_v16) : FVec Ideal S50000 .f32) = dinvArr (X1 m c) :=
  (W4_of_ne m ρ c main_v16 (by decide)).trans (W3_v16 m ρ c)
theorem W4_v3 : (W4 m ρ c (Proc.devRef .tc main_v3) : IVec S850000 32) = srcArr (X1 m c) :=
  (W4_of_ne m ρ c main_v3 (by decide)).trans (W3_v3 m ρ c)
theorem W4_v6 : (W4 m ρ c (Proc.devRef .tc main_v6) : IVec S850000 32) = dstArr (X1 m c) :=
  (W4_of_ne m ρ c main_v6 (by decide)).trans (W3_v6 m ρ c)
theorem W4_arg3 : (W4 m ρ c (Proc.devRef .tc main_arg3) : FVec Ideal S256 .f32) = X3 m c :=
  (W4_of_ne m ρ c main_arg3 (by decide)).trans (W3_arg3 m ρ c)
theorem W4_arg4 : (W4 m ρ c (Proc.devRef .tc main_arg4) : FVec Ideal S256x128 .f32) = X4 m c :=
  (W4_of_ne m ρ c main_arg4 (by decide)).trans (W3_arg4 m ρ c)
theorem W4_arg5 : (W4 m ρ c (Proc.devRef .tc main_arg5) : FVec Ideal S128 .f32) = X5 m c :=
  (W4_of_ne m ρ c main_arg5 (by decide)).trans (W3_arg5 m ρ c)

/-! ### After the first layer's host side, its `max` with zero, and the second weight's cast -/
theorem W5_v37 : (W5 m ρ c (Proc.devRef .tc main_v37) : FVec Ideal S50000x256 .f32) = layer256 (matProd (P := 50000) (K := 256) (Q := 256) (X0 m c) (castW256 (X2 m c))) (dinvArr (X1 m c)) (srcArr (X1 m c)) (dstArr (X1 m c)) (X3 m c) :=
  (s1_main_v37 (W4 m ρ c)).trans (by rw [W4_v18, W4_v16, W4_v3, W4_v6, W4_arg3])
theorem W5_v16 : (W5 m ρ c (Proc.devRef .tc main_v16) : FVec Ideal S50000 .f32) = dinvArr (X1 m c) :=
  (s1_keeps_main_v16 (W4 m ρ c)).trans (W4_v16 m ρ c)
theorem W5_v3 : (W5 m ρ c (Proc.devRef .tc main_v3) : IVec S850000 32) = srcArr (X1 m c) :=
  (s1_keeps_main_v3 (W4 m ρ c)).trans (W4_v3 m ρ c)
theorem W5_v6 : (W5 m ρ c (Proc.devRef .tc main_v6) : IVec S850000 32) = dstArr (X1 m c) :=
  (s1_keeps_main_v6 (W4 m ρ c)).trans (W4_v6 m ρ c)
theorem W5_arg4 : (W5 m ρ c (Proc.devRef .tc main_arg4) : FVec Ideal S256x128 .f32) = X4 m c :=
  (s1_keeps_main_arg4 (W4 m ρ c)).trans (W4_arg4 m ρ c)
theorem W5_arg5 : (W5 m ρ c (Proc.devRef .tc main_arg5) : FVec Ideal S128 .f32) = X5 m c :=
  (s1_keeps_main_arg5 (W4 m ρ c)).trans (W4_arg5 m ρ c)
theorem W6_v38 : (W6 m ρ c (Proc.devRef .tc main_v38) : FVec Ideal S50000x256 .f32) = maximumf (layer256 (matProd (P := 50000) (K := 256) (Q := 256) (X0 m c) (castW256 (X2 m c))) (dinvArr (X1 m c)) (srcArr (X1 m c)) (dstArr (X1 m c)) (X3 m c)) zeros256 :=
  (s11_main_v38 (W5 m ρ c)).trans (by rw [W5_v37])
theorem W6_v16 : (W6 m ρ c (Proc.devRef .tc main_v16) : FVec Ideal S50000 .f32) = dinvArr (X1 m c) :=
  (s11_keeps_main_v16 (W5 m ρ c)).trans (W5_v16 m ρ c)
theorem W6_v3 : (W6 m ρ c (Proc.devRef .tc main_v3) : IVec S850000 32) = srcArr (X1 m c) :=
  (s11_keeps_main_v3 (W5 m ρ c)).trans (W5_v3 m ρ c)
theorem W6_v6 : (W6 m ρ c (Proc.devRef .tc main_v6) : IVec S850000 32) = dstArr (X1 m c) :=
  (s11_keeps_main_v6 (W5 m ρ c)).trans (W5_v6 m ρ c)
theorem W6_arg4 : (W6 m ρ c (Proc.devRef .tc main_arg4) : FVec Ideal S256x128 .f32) = X4 m c :=
  (s11_keeps_main_arg4 (W5 m ρ c)).trans (W5_arg4 m ρ c)
theorem W6_arg5 : (W6 m ρ c (Proc.devRef .tc main_arg5) : FVec Ideal S128 .f32) = X5 m c :=
  (s11_keeps_main_arg5 (W5 m ρ c)).trans (W5_arg5 m ρ c)
theorem W7_v39 : (W7 m ρ c (Proc.devRef .tc main_v39) : FVec Ideal S256x128 .bf16) = castW128 (X4 m c) :=
  (s12_main_v39 (W6 m ρ c)).trans (by rw [W6_arg4])
theorem W7_v38 : (W7 m ρ c (Proc.devRef .tc main_v38) : FVec Ideal S50000x256 .f32) = maximumf (layer256 (matProd (P := 50000) (K := 256) (Q := 256) (X0 m c) (castW256 (X2 m c))) (dinvArr (X1 m c)) (srcArr (X1 m c)) (dstArr (X1 m c)) (X3 m c)) zeros256 :=
  (s12_keeps_main_v38 (W6 m ρ c)).trans (W6_v38 m ρ c)
theorem W7_v16 : (W7 m ρ c (Proc.devRef .tc main_v16) : FVec Ideal S50000 .f32) = dinvArr (X1 m c) :=
  (s12_keeps_main_v16 (W6 m ρ c)).trans (W6_v16 m ρ c)
theorem W7_v3 : (W7 m ρ c (Proc.devRef .tc main_v3) : IVec S850000 32) = srcArr (X1 m c) :=
  (s12_keeps_main_v3 (W6 m ρ c)).trans (W6_v3 m ρ c)
theorem W7_v6 : (W7 m ρ c (Proc.devRef .tc main_v6) : IVec S850000 32) = dstArr (X1 m c) :=
  (s12_keeps_main_v6 (W6 m ρ c)).trans (W6_v6 m ρ c)
theorem W7_arg5 : (W7 m ρ c (Proc.devRef .tc main_arg5) : FVec Ideal S128 .f32) = X5 m c :=
  (s12_keeps_main_arg5 (W6 m ρ c)).trans (W6_arg5 m ρ c)

/-! ### Region 1's exit: its output array holds the product `h · W2` -/
theorem W8_v40 : (W8 m ρ c (Proc.devRef .tc main_v40) : FVec Ideal S50000x128 .f32) = matProd (P := 50000) (K := 256) (Q := 128) (maximumf (layer256 (matProd (P := 50000) (K := 256) (Q := 256) (X0 m c) (castW256 (X2 m c))) (dinvArr (X1 m c)) (srcArr (X1 m c)) (dstArr (X1 m c)) (X3 m c)) zeros256) (castW128 (X4 m c)) :=
  (W8_arr m ρ c 2).trans ((RegionValue.region1_out (V7 m ρ) c).trans (by
    show matProd (P := 50000) (K := 256) (Q := 128) (W7 m ρ c (Proc.devRef .tc main_v38) : FVec Ideal S50000x256 .f32) (W7 m ρ c (Proc.devRef .tc main_v39) : FVec Ideal S256x128 .bf16) = _
    rw [W7_v38, W7_v39]))
theorem W8_v16 : (W8 m ρ c (Proc.devRef .tc main_v16) : FVec Ideal S50000 .f32) = dinvArr (X1 m c) :=
  (W8_of_ne m ρ c main_v16 (by decide)).trans (W7_v16 m ρ c)
theorem W8_v3 : (W8 m ρ c (Proc.devRef .tc main_v3) : IVec S850000 32) = srcArr (X1 m c) :=
  (W8_of_ne m ρ c main_v3 (by decide)).trans (W7_v3 m ρ c)
theorem W8_v6 : (W8 m ρ c (Proc.devRef .tc main_v6) : IVec S850000 32) = dstArr (X1 m c) :=
  (W8_of_ne m ρ c main_v6 (by decide)).trans (W7_v6 m ρ c)
theorem W8_arg5 : (W8 m ρ c (Proc.devRef .tc main_arg5) : FVec Ideal S128 .f32) = X5 m c :=
  (W8_of_ne m ρ c main_arg5 (by decide)).trans (W7_arg5 m ρ c)

/-! ### The result -/

/-- The result's buffer at the last boundary is `value` of the arguments' launch contents. -/
theorem result_eq : (W9 m ρ c (Proc.devRef .tc main_v59) : FVec Ideal S50000x128 .f32)
    = value (X0 m c) (X1 m c) (X2 m c) (X3 m c) (X4 m c) (X5 m c) :=
  (s2_main_v59 (W8 m ρ c)).trans (by rw [W8_v40, W8_v16, W8_v3, W8_v6, W8_arg5]; rfl)

end Boundaries

end Cert.KernelIdeal.HostValue

end
-- ==== Proof.RefValue.lean ====
/-
  The idealized reference's result as one function of its six arguments.

  The reference computes the same edge lists with self-loops, in-degrees and inverse square roots `dinv` as the kernel's
  host side. Its layer differs in where the normalisation sits: it forms one norm per edge,
  `nrm e = dinv[src e] · dinv[dst e]` (both read by a gather at normalised indices), gathers the product's rows at the
  sources, scales row `e` by `nrm e`, and sums at the raw destinations; then the bias, and a `max` with zero after the first
  layer. The run's composed term is `value` of the arguments' launch contents, by unfolding.
-/
import proofs.«131490_j2448131358806_2_alg».proof.Proof.RefRunP
import Idealize.ShloMosaic.PureOps.Ideal

set_option maxRecDepth 16384

noncomputable section

namespace Cert.ReferenceIdeal.RefValue

open Cert.ReferenceIdeal Cert.ReferenceIdeal.Gen Idealize.ShloMosaic Idealize.ShloMosaic.TcCoe Idealize.SL.Sem

/-! ## The functions the host operations compute -/

/-- The edges' sources: row 0 of the edge-index array, then one self-loop per node. -/
def srcArr (x1 : IVec S2x800000 32) : IVec S850000 32 :=
  concatenate S850000 0 [⟨S800000, shapeCast _ (extractStridedSlice S1x800000 ![0, 0] x1 slices_S2x800000_S1x800000_0_0) shapeCasts_S1x800000_S800000⟩,
    ⟨S50000, iotaInDim S50000 32 0⟩] concatenates_S800000_S50000_S850000_d0
/-- The edges' destinations: row 1 of the edge-index array, then one self-loop per node. -/
def dstArr (x1 : IVec S2x800000 32) : IVec S850000 32 :=
  concatenate S850000 0 [⟨S800000, shapeCast _ (extractStridedSlice S1x800000 ![1, 0] x1 slices_S2x800000_S1x800000_1_0) shapeCasts_S1x800000_S800000⟩,
    ⟨S50000, iotaInDim S50000 32 0⟩] concatenates_S800000_S50000_S850000_d0
/-- An index array as a column of start indices, as it stands. -/
def rawCol (d : IVec S850000 32) : IVec S850000x1 32 := broadcastInDim S850000x1 ![0] bcast_S850000_S850000x1_0 d
/-- An index array as a column of start indices, a negative index first moved up by the table's extent. -/
def normCol (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)
/-- Every node's in-degree: the segment sum of ones over the destinations. -/
def degArr (dst : IVec S850000 32) : FVec Ideal S50000 .f32 :=
  Host.scatterAdd scatter_S50000_S850000x1_S850000_n_0_0_1 (broadcastInDim S50000 ![] bcast_S_S50000 (constant S_ .f32 0x00000000#32))
    (rawCol dst) (broadcastInDim S850000 ![] bcast_S_S850000 (constant S_ .f32 0x3F800000#32))
/-- `1 / sqrt deg` where the degree is positive, `0` elsewhere. -/
def dinvOf (deg : FVec Ideal S50000 .f32) : FVec Ideal S50000 .f32 :=
  select (cmpf .ogt deg (broadcastInDim S50000 ![] bcast_S_S50000 (constant S_ .f32 0x00000000#32)))
    (Host.divf (broadcastInDim S50000 ![] bcast_S_S50000 (constant S_ .f32 0x3F800000#32)) (Host.sqrt deg))
    (broadcastInDim S50000 ![] bcast_S_S50000 (id (constant S_ .f32 0x00000000#32)))
def dinvArr (x1 : IVec S2x800000 32) : FVec Ideal S50000 .f32 := dinvOf (degArr (dstArr x1))
/-- The per-edge norm: `dinv` at the edge's source times `dinv` at its destination, both gathered at normalised indices. -/
def edgeNorm (dinv : FVec Ideal S50000 .f32) (src dst : IVec S850000 32) : FVec Ideal S850000 .f32 :=
  mulf (Host.gather gather_S50000_S850000x1_S850000_n_0_n_n_0_1_1 dinv (normCol src))
    (Host.gather gather_S50000_S850000x1_S850000_n_0_n_n_0_1_1 dinv (normCol dst))

/-- The per-edge norm spread along the rows of the `[850000, 256]` updates: entry `(e, c)` is `nrm e`. -/
def espread256 (nrm : FVec Ideal S850000 .f32) : FVec Ideal S850000x256 .f32 :=
  broadcastInDim S850000x256 ![0, 1] bcast_S850000x1_S850000x256_0_1 (broadcastInDim S850000x1 ![0] bcast_S850000_S850000x1_0 nrm)
/-- The bias spread down the rows: entry `(v, c)` is `b c`. -/
def bias256 (b : FVec Ideal S256 .f32) : FVec Ideal S50000x256 .f32 :=
  broadcastInDim S50000x256 ![0, 1] bcast_S1x256_S50000x256_0_1 (broadcastInDim S1x256 ![1] bcast_S256_S1x256_1 b)
/-- The zero table a segment sum starts from. -/
def zeros256 : FVec Ideal S50000x256 .f32 :=
  broadcastInDim S50000x256 ![] bcast_S_S50000x256 (constant S_ .f32 0x00000000#32)
/-- The reference's aggregation: gather the table's rows at the edges' sources, scale each by its edge's norm, add them up
    at the edges' destinations. -/
def agg256 (h : FVec Ideal S50000x256 .f32) (nrm : FVec Ideal S850000 .f32) (src dst : IVec S850000 32) : FVec Ideal S50000x256 .f32 :=
  Host.scatterAdd scatter_S50000x256_S850000x1_S850000x256_1_0_0_1 zeros256 (rawCol dst)
    (mulf (Host.gather gather_S50000x256_S850000x1_S850000x256_1_0_n_n_0_1_1256 h (normCol src)) (espread256 nrm))
/-- One layer after its matrix product: the aggregation plus the bias. -/
def layer256 (h : FVec Ideal S50000x256 .f32) (nrm : FVec Ideal S850000 .f32) (src dst : IVec S850000 32) (b : FVec Ideal S256 .f32) :
    FVec Ideal S50000x256 .f32 :=
  addf (agg256 h nrm src dst) (bias256 b)

/-- The per-edge norm spread along the rows of the `[850000, 128]` updates: entry `(e, c)` is `nrm e`. -/
def espread128 (nrm : FVec Ideal S850000 .f32) : FVec Ideal S850000x128 .f32 :=
  broadcastInDim S850000x128 ![0, 1] bcast_S850000x1_S850000x128_0_1 (broadcastInDim S850000x1 ![0] bcast_S850000_S850000x1_0 nrm)
/-- The bias spread down the rows: entry `(v, c)` is `b c`. -/
def bias128 (b : FVec Ideal S128 .f32) : FVec Ideal S50000x128 .f32 :=
  broadcastInDim S50000x128 ![0, 1] bcast_S1x128_S50000x128_0_1 (broadcastInDim S1x128 ![1] bcast_S128_S1x128_1 b)
/-- The zero table a segment sum starts from. -/
def zeros128 : FVec Ideal S50000x128 .f32 :=
  broadcastInDim S50000x128 ![] bcast_S_S50000x128 (constant S_ .f32 0x00000000#32)
/-- The reference's aggregation: gather the table's rows at the edges' sources, scale each by its edge's norm, add them up
    at the edges' destinations. -/
def agg128 (h : FVec Ideal S50000x128 .f32) (nrm : FVec Ideal S850000 .f32) (src dst : IVec S850000 32) : FVec Ideal S50000x128 .f32 :=
  Host.scatterAdd scatter_S50000x128_S850000x1_S850000x128_1_0_0_1 zeros128 (rawCol dst)
    (mulf (Host.gather gather_S50000x128_S850000x1_S850000x128_1_0_n_n_0_1_1128 h (normCol src)) (espread128 nrm))
/-- One layer after its matrix product: the aggregation plus the bias. -/
def layer128 (h : FVec Ideal S50000x128 .f32) (nrm : FVec Ideal S850000 .f32) (src dst : IVec S850000 32) (b : FVec Ideal S128 .f32) :
    FVec Ideal S50000x128 .f32 :=
  addf (agg128 h nrm src dst) (bias128 b)

/-- The whole program: two layers, a `max` with zero between them. -/
def value (x0 : FVec Ideal S50000x256 .f32) (x1 : IVec S2x800000 32) (x2 : FVec Ideal S256x256 .f32) (x3 : FVec Ideal S256 .f32)
    (x4 : FVec Ideal S256x128 .f32) (x5 : FVec Ideal S128 .f32) : FVec Ideal S50000x128 .f32 :=
  layer128 (Host.dotGeneral dot_S50000x256_S256x128_S50000x128_1_0_0_1_n_n none
      (maximumf (layer256 (Host.dotGeneral dot_S50000x256_S256x256_S50000x256_1_0_0_1_n_n none x0 x2)
        (edgeNorm (dinvArr x1) (srcArr x1) (dstArr x1)) (srcArr x1) (dstArr x1) x3) zeros256) x4)
    (edgeNorm (dinvArr x1) (srcArr x1) (dstArr x1)) (srcArr x1) (dstArr x1) x5

/-! ## The run's term is `value` of the arguments -/

set_option maxHeartbeats 4000000 in
theorem res_eq (m : (ℓ : Loc nD τ sig) → Buf (Elt Ideal) ℓ) (c : Dev nD) :
    (Cert.ReferenceIdeal.ValueP.res_main_v66 (F := Ideal) m c : S50000x128.Idx → Ideal .f32)
      = value (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v66 value layer128 layer256 agg128 agg256 espread128 espread256 bias128 bias256 zeros128 zeros256
    edgeNorm dinvArr dinvOf degArr srcArr dstArr rawCol normCol
  rfl

end Cert.ReferenceIdeal.RefValue

end
-- ==== Proof.PreFinite.lean ====
/-
  What the precondition gives: every float argument holds real numbers.

  The precondition is the conjunction, over the five float arguments, of "every entry's absolute value is below `+∞`": an
  elementwise compare against the pattern of `+∞`, an `and` over all entries, and an `and` of the five results. On the
  extended reals `|x| = max x (−x)`, and `max x (−x) < ⊤` says `x` is neither `⊤` nor `⊥`: a real number.
-/
import proofs.«131490_j2448131358806_2_alg».proof.Pre_finite_inputs
import proofs.«131490_j2448131358806_2_alg».proof.Proof.Gen.Pre_finite_inputs
import proofs.«131490_j2448131358806_2_alg».proof.Proof.LibErealAlgebra
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Decode

open Cert.Pre_finite_inputs Cert.Pre_finite_inputs.Gen Idealize.ShloMosaic Idealize.ShloMosaic.ValueIdx ErealAlgebra

instance : Subsingleton S_.Idx := ⟨fun a b => funext fun d => d.elim0⟩

/-- The pattern `0x7F800000` denotes `+∞`. -/
theorem ofBits_inf : Ideal.ofBits .f32 0x7F800000#32 = (⊤ : EReal) := by
  simp [Ideal.ofBits, Ideal.ieee]

/-- An extended real whose absolute value is below `+∞` is a real number. -/
theorem isReal_of_abs_lt (x : EReal) (h : Ideal.cmp .olt (max x (-x)) (Ideal.ofBits .f32 0x7F800000#32) = 1#1) : IsReal x := by
  rw [ofBits_inf] at h
  unfold Ideal.cmp at h
  have hlt : max x (-x) < ⊤ := by
    by_contra hn
    simp [hn] at h
  have h1 : x ≠ ⊤ := fun e => by rw [e] at hlt; simp at hlt
  have h2 : x ≠ ⊥ := fun e => by rw [e] at hlt; simp at hlt
  exact ⟨x.toReal, (EReal.coe_toReal h1 h2).symm⟩

/-- One conjunct of the precondition: `jnp.all(|x| < +∞)` is true, so every entry of `x` is a real number. -/
theorem all_isReal {s : Shape} {axes : List (Fin s.rank)} (x : FVec Ideal s .f32) (hb : S_.BroadcastsInDim s (![] : Fin 0 → Fin s.rank))
    (hr : s.ReducesTo axes S_) (hu : 0 < S_.numel) (init : IVec S_ 1)
    (e : Host.reduce IntOp.andi (cmpf .olt (Host.absf x) (broadcastInDim s ![] hb (constant S_ .f32 0x7F800000#32))) init hr hu ix0 = 1#1)
    (i : s.Idx) : IsReal (x i) := by
  have hi := Host.reduce_andi_all _ init hr hu ix0 e i
  refine isReal_of_abs_lt (x i) ?_
  rw [cmpf_apply] at hi
  exact hi

/-- THE PRECONDITION READ: each float argument holds real numbers. -/
theorem inputs_isReal (x0 : FVec Ideal S50000x256 .f32) (x1 : IVec S2x800000 32) (x2 : FVec Ideal S256x256 .f32) (x3 : FVec Ideal S256 .f32)
    (x4 : FVec Ideal S256x128 .f32) (x5 : FVec Ideal S128 .f32) (h : fn (F := Ideal) x0 x1 x2 x3 x4 x5 = fun _ => 1#1) :
    (∀ i, IsReal (x0 i)) ∧ (∀ i, IsReal (x2 i)) ∧ (∀ i, IsReal (x3 i)) ∧ (∀ i, IsReal (x4 i)) ∧ (∀ i, IsReal (x5 i)) := by
  have h0 := congrFun h ix0
  dsimp only [fn, fn_part1] at h0
  obtain ⟨h1, e5⟩ := IntOp.andi_eq_one.1 h0
  obtain ⟨h2, e4⟩ := IntOp.andi_eq_one.1 h1
  obtain ⟨h3, e3⟩ := IntOp.andi_eq_one.1 h2
  obtain ⟨e0, e2⟩ := IntOp.andi_eq_one.1 h3
  exact ⟨all_isReal x0 _ _ _ _ e0, all_isReal x2 _ _ _ _ e2, all_isReal x3 _ _ _ _ e3, all_isReal x4 _ _ _ _ e4,
    all_isReal x5 _ _ _ _ e5⟩

end Cert.Pre_finite_inputs.Decode

end
-- ==== Proof.LibRowIndexing.lean ====
/-
  Gathering rows of a table and scattering rows into a table, read at an index.

  `x[idx]` for a table `x : [N, C]` and a column of `R` integer start indices `idx : [R, 1]` is a `stablehlo.gather`
  whose result row `e` is the table's row at `idx[e, 0]`, read as a signed integer and clamped into `[0, N − 1]`; the same
  gather of a flat array `x : [N]` picks the entry at that clamped position. The accumulating scatter of `R` rows into an
  `[N, C]` table at a column of start indices adds update row `e` to the table's row `idx[e, 0]`, read as a signed integer and
  NOT clamped: an update whose index is negative or at least `N` is dropped.

  So the three operations agree on where edge `e` reads and lands, in this sense:
  * `rowTake_row`, `take1_row`: the row a gather reads for result row `e` is `min (idx[e,0] as a natural) (N − 1)`, for
    the table gather and for the flat gather alike;
  * `rowScatter_row`: if update `(e, c)` lands on element `i` of the table, then `idx[e, 0]`, as a signed integer, IS
    `i`'s row — in particular it is in range, and a gather at the same index reads that row unclamped.
-/
import Idealize.ShloMosaic.Lib.ValueIdx
import Idealize.ShloMosaic.PureOps.Contract
import Idealize.ShloMosaic.PureOps.ShapeOps

noncomputable section

namespace RowIndexing

open Idealize.ShloMosaic Idealize.ShloMosaic.ValueIdx

variable {N R C w : Nat}

/-! ## The three operations' dimension numbers -/

/-- Gather rows of an `[N, C]` table at a column `[R, 1]` of start indices: result `[R, C]`. -/
abbrev rowTake (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Gather entries of a flat `[N]` array at a column `[R, 1]` of start indices: result `[R]`. -/
abbrev take1 (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Scatter `R` update rows `[R, C]` into an `[N, C]` table at a column `[R, 1]` of start indices. -/
abbrev rowScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The start index of edge `e`: the column's entry `(e, 0)`. -/
abbrev colIdx (e : Fin R) : (⟨2, ![R, 1]⟩ : Shape).Idx := ix2 (n0 := R) (n1 := 1) e 0

/-! ## Where a gather reads -/

/-- The table gather reads, for result row `e`, the row `min idx[e,0] (N − 1)`. -/
theorem rowTake_row (wf) (idx : IVec ⟨2, ![R, 1]⟩ w) (j : (⟨2, ![R, C]⟩ : Shape).Idx) :
    ((rowTake N R C wf).operandIdx j idx 0).val = min (idx (colIdx (j 0))).toInt.toNat (N - 1) := by
  show (rowTake N R C wf).start j idx 0 + (rowTake N R C wf).batchCoord j 0 + (rowTake N R C wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowTake N R C wf).startIndexMap from List.mem_singleton.mpr rfl)]
  have hsi : (rowTake N R C wf).siIdx j ⟨List.idxOf (0 : Fin 2) (rowTake N R C wf).startIndexMap,
      List.idxOf_lt_length_iff.2 (List.mem_singleton.mpr rfl)⟩ = colIdx (j 0) := by
    funext b; refine Fin.ext ?_
    match b with
    | ⟨0, _⟩ => rfl
    | ⟨1, _⟩ => rfl
  rw [hsi]
  rfl

/-- The flat gather reads, for result entry `e`, the entry `min idx[e,0] (N − 1)`. -/
theorem take1_row (wf) (idx : IVec ⟨2, ![R, 1]⟩ w) (j : (⟨1, ![R]⟩ : Shape).Idx) :
    ((take1 N R wf).operandIdx j idx 0).val = min (idx (colIdx (j 0))).toInt.toNat (N - 1) := by
  show (take1 N R wf).start j idx 0 + (take1 N R wf).batchCoord j 0 + (take1 N R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1 N R wf).startIndexMap from List.mem_singleton.mpr rfl)]
  have hsi : (take1 N R wf).siIdx j ⟨List.idxOf (0 : Fin 1) (take1 N R wf).startIndexMap,
      List.idxOf_lt_length_iff.2 (List.mem_singleton.mpr rfl)⟩ = colIdx (j 0) := by
    funext b; refine Fin.ext ?_
    match b with
    | ⟨0, _⟩ => rfl
    | ⟨1, _⟩ => rfl
  rw [hsi]
  rfl

/-! ## Where a scattered update lands -/

theorem mem_sKept_scatter {s si u : Shape} (d : ScatterDims s si u) (a : Fin s.rank) :
    a ∈ d.sKept ↔ a ∉ d.insertedWindowDims := by
  simp [ScatterDims.sKept, Shape.kept, List.mem_filter, List.mem_finRange]

/-- If update `j = (e, c)` lands on element `i` of the table, the start index `idx[e, 0]`, as a signed integer, is `i`'s
    row. -/
theorem rowScatter_row (wf) (idx : IVec ⟨2, ![R, 1]⟩ w) (j : (⟨2, ![R, C]⟩ : Shape).Idx) (i : (⟨2, ![N, C]⟩ : Shape).Idx)
    (h : (rowScatter N R C wf).resultIdx? j idx = some i) :
    (idx (colIdx (j 0))).toInt = ((i 0).val : Int) := by
  have hw : (rowScatter N R C wf).window j 0 = 0 := by
    unfold ScatterDims.window
    rw [dif_neg (fun hm => ((mem_sKept_scatter _ _).mp hm) (List.mem_singleton.mpr rfl))]
  have hs : (rowScatter N R C wf).start j idx 0 = (idx (colIdx (j 0))).toInt := by
    unfold ScatterDims.start
    rw [dif_pos (show (0 : Fin 2) ∈ (rowScatter N R C wf).scatterDimsToOperandDims from List.mem_singleton.mpr rfl)]
    have hsi : (rowScatter N R C wf).siIdx j ⟨List.idxOf (0 : Fin 2) (rowScatter N R C wf).scatterDimsToOperandDims,
        List.idxOf_lt_length_iff.2 (List.mem_singleton.mpr rfl)⟩ = colIdx (j 0) := by
      funext b; refine Fin.ext ?_
      match b with
      | ⟨0, _⟩ => rfl
      | ⟨1, _⟩ => rfl
    rw [hsi]
    rfl
  unfold ScatterDims.resultIdx? at h
  split at h
  · rename_i hall
    have hi : (i 0).val = ((rowScatter N R C wf).start j idx 0 + (rowScatter N R C wf).window j 0).toNat := by
      rw [← Option.some.inj h]
    have h0 := (hall 0).1
    rw [hw, hs] at hi h0
    simp only [Nat.cast_zero, add_zero] at hi h0
    omega
  · exact absurd h (by simp)

end RowIndexing

end
-- ==== Proof.LibSegmentScale.lean ====
/-
  Pulling a per-destination scale out of a segment sum, on the extended reals.

  A graph-convolution layer sends, along every edge `e`, the source row `H[src e]` scaled by `a[src e] · a[dst e]` and adds
  what arrives at each destination `v`. Since `a[dst e] = a[v]` for every edge that arrives at `v`, the sum is
  `(∑ H[src e] · a[src e]) · a[v]`: scale the table's rows by `a` first, sum, then scale row `v` once. Moving the factor
  `a[v]` across the sum is right-distributivity, which the extended reals have for real numbers only; so the laws ask
  that the table and the scale hold real numbers.

  * `real_add_mul`, `sum_mul_real`: right-distributivity for real numbers, for two terms and for a finite sum.
  * `scaled_segment_sum`: `(∑ h·a) · d = ∑ h · (a · q)` when every `q j = d` on the segment.
  * `select_slt_zero_of_nonneg`: the usual "add the extent to a negative index" normalisation leaves a non-negative
    32-bit index alone.
  * `inv_sqrt_entry_isReal`: `where(deg > 0, 1 / sqrt deg, 0)` is a real number when `deg` is.
  * `layer_eq`: the whole-array statement, over a row gather, a flat gather and a row scatter of one table extent.
-/
import proofs.«131490_j2448131358806_2_alg».proof.Proof.LibErealAlgebra
import proofs.«131490_j2448131358806_2_alg».proof.Proof.LibHostIndexingReal
import proofs.«131490_j2448131358806_2_alg».proof.Proof.LibRowIndexing
import Idealize.ShloMosaic.PureOps.Ideal.Laws

noncomputable section

namespace SegmentScale

open Idealize.ShloMosaic Idealize.ShloMosaic.ValueIdx ErealAlgebra RowIndexing

/-! ## Right-distributivity for real numbers -/

theorem real_add_mul {x y z : EReal} (hx : IsReal x) (hy : IsReal y) (hz : IsReal z) : (x + y) * z = x * z + y * z := by
  obtain ⟨a, rfl⟩ := hx; obtain ⟨b, rfl⟩ := hy; obtain ⟨c, rfl⟩ := hz
  rw [← EReal.coe_add, ← EReal.coe_mul, ← EReal.coe_mul, ← EReal.coe_mul, ← EReal.coe_add]
  congr 1; ring

theorem sum_mul_real {ι : Type*} (S : Finset ι) (t : ι → EReal) (d : EReal) (ht : ∀ j ∈ S, IsReal (t j)) (hd : IsReal d) :
    (∑ j ∈ S, t j) * d = ∑ j ∈ S, t j * d := by
  classical
  induction S using Finset.induction_on with
  | empty => simp
  | insert a s ha ih =>
    rw [Finset.sum_insert ha, Finset.sum_insert ha,
      real_add_mul (ht a (Finset.mem_insert_self a s)) (IsReal.sum s t fun j hj => ht j (Finset.mem_insert_of_mem hj)) hd,
      ih fun j hj => ht j (Finset.mem_insert_of_mem hj)]

/-- A sum of products `h · a` over a segment, scaled once by `d`, is the sum of `h · (a · q)` when the second scale `q`
    is the constant `d` on the segment. -/
theorem scaled_segment_sum {ι : Type*} (S : Finset ι) (h a q : ι → EReal) (d : EReal)
    (hh : ∀ j ∈ S, IsReal (h j)) (ha : ∀ j ∈ S, IsReal (a j)) (hd : IsReal d) (hq : ∀ j ∈ S, q j = d) :
    (∑ j ∈ S, h j * a j) * d = ∑ j ∈ S, h j * (a j * q j) := by
  rw [sum_mul_real S _ d (fun j hj => (hh j hj).mul (ha j hj)) hd]
  refine Finset.sum_congr rfl fun j hj => ?_
  rw [hq j hj, mul_assoc]

/-! ## A non-negative index is already normalised -/

theorem select_slt_zero_of_nonneg (x y : BitVec 32) (h : 0 ≤ x.toInt) :
    Scalar.select (IntOp.cmpi .slt x 0#32) y x = x := by
  have hs : x.slt 0#32 = false := by
    simp only [BitVec.slt, BitVec.toInt_zero, decide_eq_false_iff_not, not_lt]
    exact h
  unfold Scalar.select IntOp.cmpi
  simp only [hs]
  rfl

/-! ## The inverse square root of a degree is a real number -/

theorem inv_sqrt_entry_isReal {deg one zero z : EReal} (hdeg : IsReal deg) (hone : IsReal one) (hzero : IsReal zero)
    (hz : z = 0) :
    IsReal (Scalar.select (Ideal.cmp .ogt deg z) (Ideal.div one (Ideal.sqrt deg)) zero) := by
  obtain ⟨r, rfl⟩ := hdeg
  subst hz
  unfold Scalar.select Ideal.cmp
  by_cases hr : (0 : EReal) < (r : EReal)
  · have hr' : 0 < r := by exact_mod_cast hr
    have hs : Ideal.sqrt (r : EReal) = ((Real.sqrt r : ℝ) : EReal) := by
      show (if r < 0 then (⊥ : EReal) else (Real.sqrt r : EReal)) = _
      rw [if_neg (not_lt.mpr hr'.le)]
    simp only [hr, decide_true, BitVec.ofBool_true, if_true, hs]
    exact hone.div_coe (Real.sqrt_pos.mpr hr').ne'
  · simp only [hr, decide_false, BitVec.ofBool_false]
    rw [if_neg (by decide)]
    exact hzero

/-! ## The host's gather and accumulating scatter at an index, at the ideal instance -/

theorem scatterAdd_apply {s si u : Shape} {w : Nat} {φ : FTy} (d : ScatterDims s si u) (x : FVec Ideal s φ) (idx : IVec si w)
    (upd : FVec Ideal u φ) (i : s.Idx) :
    Host.scatterAdd d x idx upd i = x i + ∑ j ∈ Finset.univ.filter (fun j => d.resultIdx? j idx = some i), upd j := rfl

theorem gather_apply {α : Type} {s si t : Shape} {w : Nat} (d : GatherDims s si t) (x : s.Idx → α) (idx : IVec si w) (j : t.Idx) :
    Host.gather d x idx j = x (d.operandIdx j idx) := rfl

/-! ## The layer law -/

variable {N R C : Nat}

/-- Scaling the table's rows by `dinv` before the gather and the summed rows by `dinv` after the scatter is scaling each
    gathered row by `dinv[src] · dinv[dst]` before the scatter. `D` is `dinv` spread along the rows of the table's shape, `Nrm` the
    per-edge product spread along the rows of the updates' shape, `Z` the zero table the scatter starts from; the gathers
    read at normalised indices `srcn`, `dstn`, the scatter lands at the raw `dstb`, and normalising leaves a non-negative
    index alone (`hdst`). -/
theorem layer_eq (wfg2) (wfg1) (wfs)
    (H D Z : FVec Ideal ⟨2, ![N, C]⟩ .f32) (dinv : FVec Ideal ⟨1, ![N]⟩ .f32)
    (Nrm : FVec Ideal ⟨2, ![R, C]⟩ .f32) (srcn dstn dstb : IVec ⟨2, ![R, 1]⟩ 32)
    (hH : ∀ i, IsReal (H i)) (hd : ∀ i, IsReal (dinv i)) (hZ : ∀ i, Z i = 0)
    (hD : ∀ i, D i = dinv (ix1 (i 0)))
    (hNrm : ∀ j, Nrm j = Host.gather (take1 N R wfg1) dinv srcn (ix1 (j 0)) * Host.gather (take1 N R wfg1) dinv dstn (ix1 (j 0)))
    (hdst : ∀ e : Fin R, 0 ≤ (dstb (colIdx e)).toInt → dstn (colIdx e) = dstb (colIdx e)) :
    mulf (Host.scatterAdd (rowScatter N R C wfs) Z dstb (Host.gather (rowTake N R C wfg2) (mulf H D) srcn)) D
      = Host.scatterAdd (rowScatter N R C wfs) Z dstb (mulf (Host.gather (rowTake N R C wfg2) H srcn) Nrm) := by
  funext i
  rw [mulf_apply, scatterAdd_apply, scatterAdd_apply, hZ i, zero_add, zero_add, hD i]
  simp only [gather_apply, mulf_apply]
  rw [scaled_segment_sum _ (fun j => H ((rowTake N R C wfg2).operandIdx j srcn))
    (fun j => D ((rowTake N R C wfg2).operandIdx j srcn))
    (fun j => dinv ((take1 N R wfg1).operandIdx (ix1 (j 0)) dstn)) (dinv (ix1 (i 0)))
    (fun j _ => hH _) (fun j _ => by rw [hD]; exact hd _) (hd _) ?hq]
  case hq =>
    intro j hj
    have hland := rowScatter_row wfs dstb j i (Finset.mem_filter.mp hj).2
    have hnn : 0 ≤ (dstb (colIdx (j 0))).toInt := by rw [hland]; exact Int.natCast_nonneg _
    refine congrArg dinv (funext fun a => Fin.ext ?_)
    match a with
    | ⟨0, _⟩ =>
      refine (take1_row wfg1 dstn (ix1 (j 0))).trans ?_
      show min (dstn (colIdx (j 0))).toInt.toNat (N - 1) = (i 0).val
      rw [hdst (j 0) hnn, hland, Int.toNat_natCast]
      have := idx2_lt0 i
      omega
  refine Finset.sum_congr rfl fun j _ => ?_
  rw [hNrm j, gather_apply, gather_apply, hD]
  congr 3
  funext a
  refine Fin.ext ?_
  match a with
  | ⟨0, _⟩ => exact (rowTake_row wfg2 srcn j).trans (take1_row wfg1 srcn (ix1 (j 0))).symm

end SegmentScale

end
-- ==== Proof.Bridge.lean ====
/-
  The two programs compute one function.

  Both compute the same edge lists, degrees and inverse square roots `dinv`. Per layer, the reference scales the gathered
  row of edge `e` by `dinv[src e] · dinv[dst e]` before the segment sum; the kernel scales the table's rows by `dinv` before
  the gather and the summed row `v` by `dinv[v]` after. An edge that lands on row `v` has `dst e = v` as a signed integer,
  in range, so its normalised and clamped gather index is `v` too and `dinv[dst e] = dinv[v]`; the factor then moves across
  the finite sum because the product's entries and `dinv` are real numbers — the inputs are finite, a matrix product of real
  matrices is real, and `1 / sqrt deg` of a positive real degree is real. The kernel's blockwise matrix product and the
  reference's `dot_general` are the same sum; the change of float format on the weights is the identity.
-/
import proofs.«131490_j2448131358806_2_alg».proof.Proof.KernelHost
import proofs.«131490_j2448131358806_2_alg».proof.Proof.RefValue
import proofs.«131490_j2448131358806_2_alg».proof.Proof.LibSegmentScale
import proofs.«131490_j2448131358806_2_alg».proof.Proof.LibMatProd
import Idealize.ShloMosaic.Lib.Pipeline.Value
import Idealize.ShloMosaic.Lib.ValueIdx

set_option maxRecDepth 16384

noncomputable section

namespace Cert.Bridge

open Idealize.ShloMosaic Idealize.ShloMosaic.ValueIdx ErealAlgebra RowIndexing SegmentScale MatProd

/-! ## The constants -/

/-- The pattern of `1.0` denotes a real number: its exponent field is neither all ones nor zero. -/
theorem one_isReal : IsReal (Ideal.ofBits .f32 0x3F800000#32) := by
  show IsReal (Ideal.ieee 8 23 (0x3F800000#32 : BitVec 32))
  unfold Ideal.ieee
  dsimp only
  split
  · rename_i h; exact absurd h (by decide)
  · split
    · rename_i h; exact absurd h (by decide)
    · exact ⟨_, rfl⟩

/-! ## The shared index columns at an edge -/

/-- The raw column at edge `e` is the index array's entry `e`. -/
theorem rawCol_apply (d : IVec Cert.KernelIdeal.S850000 32) (e : Fin 850000) : Cert.KernelIdeal.HostValue.rawCol d (colIdx e) = d (ix1 e) := by
  unfold Cert.KernelIdeal.HostValue.rawCol
  exact broadcastInDim_apply _ _ d (colIdx e) (ix1 e) (fun a => by
    fin_cases a
    exact (if_neg (by decide)).symm)

/-- The normalised column at edge `e` is the normalisation of the index array's entry `e`. -/
theorem normCol_apply (d : IVec Cert.KernelIdeal.S850000 32) (e : Fin 850000) :
    Cert.KernelIdeal.HostValue.normCol d (colIdx e) = Scalar.select (IntOp.cmpi .slt (d (ix1 e)) 0#32) (IntOp.addi (d (ix1 e)) 50000#32) (d (ix1 e)) := by
  unfold Cert.KernelIdeal.HostValue.normCol
  refine (broadcastInDim_apply _ _ _ (colIdx e) (ix1 e) (fun a => by
    fin_cases a
    exact (if_neg (by decide)).symm)).trans ?_
  rfl

/-- Normalising leaves a non-negative destination alone. -/
theorem norm_of_nonneg (d : IVec Cert.KernelIdeal.S850000 32) (e : Fin 850000) (h : 0 ≤ (Cert.KernelIdeal.HostValue.rawCol d (colIdx e)).toInt) :
    Cert.KernelIdeal.HostValue.normCol d (colIdx e) = Cert.KernelIdeal.HostValue.rawCol d (colIdx e) := by
  rw [rawCol_apply] at h ⊢
  rw [normCol_apply]
  exact select_slt_zero_of_nonneg _ _ h

/-! ## The inverse square roots of the degrees are real numbers -/

theorem zero_isReal : IsReal (Ideal.ofBits .f32 0x00000000#32) := by rw [Ideal.ofBits_zero_f32]; exact IsReal.zero

theorem deg_isReal (dst : IVec Cert.KernelIdeal.S850000 32) (i : Cert.KernelIdeal.S50000.Idx) : IsReal (Cert.KernelIdeal.HostValue.degArr dst i) := by
  unfold Cert.KernelIdeal.HostValue.degArr
  exact scatterAdd_isReal _ _ _ _ (fun _ => zero_isReal) (fun _ => one_isReal) i

/-- `where(deg > 0, 1 / sqrt deg, 0)` at an entry. -/
theorem dinvOf_apply (deg : FVec Ideal Cert.KernelIdeal.S50000 .f32) (i : Cert.KernelIdeal.S50000.Idx) :
    Cert.KernelIdeal.HostValue.dinvOf deg i = Scalar.select (Ideal.cmp .ogt (deg i) (Ideal.ofBits .f32 0x00000000#32))
      (Ideal.div (Ideal.ofBits .f32 0x3F800000#32) (Ideal.sqrt (deg i))) (Ideal.ofBits .f32 0x00000000#32) := rfl

theorem dinvArr_isReal (x1 : IVec Cert.KernelIdeal.S2x800000 32) (i : Cert.KernelIdeal.S50000.Idx) : IsReal (Cert.KernelIdeal.HostValue.dinvArr x1 i) := by
  unfold Cert.KernelIdeal.HostValue.dinvArr
  rw [dinvOf_apply]
  exact inv_sqrt_entry_isReal (deg_isReal _ i) one_isReal zero_isReal Ideal.ofBits_zero_f32

/-! ## Width 256 -/

/-- `dinv` spread along the rows, at `(v, c)`: `dinv v`. -/
theorem spread256_apply (dinv : FVec Ideal Cert.KernelIdeal.S50000 .f32) (i : Cert.KernelIdeal.S50000x256.Idx) :
    Cert.KernelIdeal.HostValue.spread256 dinv i = dinv (ix1 (i 0)) := by
  unfold Cert.KernelIdeal.HostValue.spread256
  refine (broadcastInDim_apply _ _ _ i (ix2 (n0 := 50000) (n1 := 1) (i 0) 0) (fun a => by
    fin_cases a
    · exact (if_neg (by decide)).symm
    · exact (if_pos rfl).symm)).trans ?_
  exact broadcastInDim_apply _ _ dinv _ (ix1 (i 0)) (fun a => by
    fin_cases a
    exact (if_neg (by decide)).symm)

/-- The per-edge norm spread along the update rows, at `(e, c)`: `nrm e`. -/
theorem espread256_apply (nrm : FVec Ideal Cert.ReferenceIdeal.S850000 .f32) (j : Cert.ReferenceIdeal.S850000x256.Idx) :
    Cert.ReferenceIdeal.RefValue.espread256 nrm j = nrm (ix1 (j 0)) := by
  unfold Cert.ReferenceIdeal.RefValue.espread256
  refine (broadcastInDim_apply _ _ _ j (ix2 (n0 := 850000) (n1 := 1) (j 0) 0) (fun a => by
    fin_cases a
    · exact (if_neg (by decide)).symm
    · exact (if_pos rfl).symm)).trans ?_
  exact broadcastInDim_apply _ _ nrm _ (ix1 (j 0)) (fun a => by
    fin_cases a
    exact (if_neg (by decide)).symm)

theorem zeros256_apply (i : Cert.KernelIdeal.S50000x256.Idx) : Cert.KernelIdeal.HostValue.zeros256 i = 0 := by
  show Ideal.ofBits .f32 0x00000000#32 = 0
  exact Ideal.ofBits_zero_f32

/-- THE AGGREGATION: the kernel's two per-node scalings are the reference's per-edge norm, on real tables and real `dinv`. -/
theorem agg256_eq (h : FVec Ideal Cert.KernelIdeal.S50000x256 .f32) (dinv : FVec Ideal Cert.KernelIdeal.S50000 .f32) (src dst : IVec Cert.KernelIdeal.S850000 32)
    (hh : ∀ i, IsReal (h i)) (hd : ∀ i, IsReal (dinv i)) :
    Cert.KernelIdeal.HostValue.agg256 h dinv src dst = Cert.ReferenceIdeal.RefValue.agg256 h (Cert.ReferenceIdeal.RefValue.edgeNorm dinv src dst) src dst := by
  unfold Cert.KernelIdeal.HostValue.agg256 Cert.ReferenceIdeal.RefValue.agg256
  exact layer_eq (N := 50000) (R := 850000) (C := 256)
    (Cert.KernelIdeal.gather_S50000x256_S850000x1_S850000x256_1_0_n_n_0_1_1256).wf
    (Cert.ReferenceIdeal.gather_S50000_S850000x1_S850000_n_0_n_n_0_1_1).wf
    (Cert.KernelIdeal.scatter_S50000x256_S850000x1_S850000x256_1_0_0_1).wf
    h (Cert.KernelIdeal.HostValue.spread256 dinv) Cert.KernelIdeal.HostValue.zeros256 dinv (Cert.ReferenceIdeal.RefValue.espread256 (Cert.ReferenceIdeal.RefValue.edgeNorm dinv src dst))
    (Cert.KernelIdeal.HostValue.normCol src) (Cert.KernelIdeal.HostValue.normCol dst) (Cert.KernelIdeal.HostValue.rawCol dst)
    hh hd zeros256_apply (spread256_apply dinv)
    (fun j => by rw [espread256_apply]; rfl)
    (fun e he => norm_of_nonneg dst e he)

theorem layer256_eq (h : FVec Ideal Cert.KernelIdeal.S50000x256 .f32) (dinv : FVec Ideal Cert.KernelIdeal.S50000 .f32) (src dst : IVec Cert.KernelIdeal.S850000 32)
    (b : FVec Ideal Cert.KernelIdeal.S256 .f32) (hh : ∀ i, IsReal (h i)) (hd : ∀ i, IsReal (dinv i)) :
    Cert.KernelIdeal.HostValue.layer256 h dinv src dst b = Cert.ReferenceIdeal.RefValue.layer256 h (Cert.ReferenceIdeal.RefValue.edgeNorm dinv src dst) src dst b := by
  unfold Cert.KernelIdeal.HostValue.layer256 Cert.ReferenceIdeal.RefValue.layer256
  rw [agg256_eq h dinv src dst hh hd]
  rfl

/-- A layer of real tables, real `dinv` and a real bias holds real numbers. -/
theorem layer256_isReal (h : FVec Ideal Cert.KernelIdeal.S50000x256 .f32) (dinv : FVec Ideal Cert.KernelIdeal.S50000 .f32) (src dst : IVec Cert.KernelIdeal.S850000 32)
    (b : FVec Ideal Cert.KernelIdeal.S256 .f32) (hh : ∀ i, IsReal (h i)) (hd : ∀ i, IsReal (dinv i)) (hb : ∀ i, IsReal (b i))
    (i : Cert.KernelIdeal.S50000x256.Idx) : IsReal (Cert.KernelIdeal.HostValue.layer256 h dinv src dst b i) := by
  unfold Cert.KernelIdeal.HostValue.layer256 Cert.KernelIdeal.HostValue.agg256
  rw [addf_apply, mulf_apply]
  refine IsReal.add (IsReal.mul (scatterAdd_isReal _ _ _ _ (fun i => by rw [zeros256_apply]; exact IsReal.zero)
    (fun j => gather_isReal _ _ _ (fun i => by rw [mulf_apply, spread256_apply]; exact (hh i).mul (hd _)) j) i)
    (by rw [spread256_apply]; exact hd _)) ?_
  unfold Cert.KernelIdeal.HostValue.bias256
  exact hb _

/-! ## Width 128 -/

/-- `dinv` spread along the rows, at `(v, c)`: `dinv v`. -/
theorem spread128_apply (dinv : FVec Ideal Cert.KernelIdeal.S50000 .f32) (i : Cert.KernelIdeal.S50000x128.Idx) :
    Cert.KernelIdeal.HostValue.spread128 dinv i = dinv (ix1 (i 0)) := by
  unfold Cert.KernelIdeal.HostValue.spread128
  refine (broadcastInDim_apply _ _ _ i (ix2 (n0 := 50000) (n1 := 1) (i 0) 0) (fun a => by
    fin_cases a
    · exact (if_neg (by decide)).symm
    · exact (if_pos rfl).symm)).trans ?_
  exact broadcastInDim_apply _ _ dinv _ (ix1 (i 0)) (fun a => by
    fin_cases a
    exact (if_neg (by decide)).symm)

/-- The per-edge norm spread along the update rows, at `(e, c)`: `nrm e`. -/
theorem espread128_apply (nrm : FVec Ideal Cert.ReferenceIdeal.S850000 .f32) (j : Cert.ReferenceIdeal.S850000x128.Idx) :
    Cert.ReferenceIdeal.RefValue.espread128 nrm j = nrm (ix1 (j 0)) := by
  unfold Cert.ReferenceIdeal.RefValue.espread128
  refine (broadcastInDim_apply _ _ _ j (ix2 (n0 := 850000) (n1 := 1) (j 0) 0) (fun a => by
    fin_cases a
    · exact (if_neg (by decide)).symm
    · exact (if_pos rfl).symm)).trans ?_
  exact broadcastInDim_apply _ _ nrm _ (ix1 (j 0)) (fun a => by
    fin_cases a
    exact (if_neg (by decide)).symm)

theorem zeros128_apply (i : Cert.KernelIdeal.S50000x128.Idx) : Cert.KernelIdeal.HostValue.zeros128 i = 0 := by
  show Ideal.ofBits .f32 0x00000000#32 = 0
  exact Ideal.ofBits_zero_f32

/-- THE AGGREGATION: the kernel's two per-node scalings are the reference's per-edge norm, on real tables and real `dinv`. -/
theorem agg128_eq (h : FVec Ideal Cert.KernelIdeal.S50000x128 .f32) (dinv : FVec Ideal Cert.KernelIdeal.S50000 .f32) (src dst : IVec Cert.KernelIdeal.S850000 32)
    (hh : ∀ i, IsReal (h i)) (hd : ∀ i, IsReal (dinv i)) :
    Cert.KernelIdeal.HostValue.agg128 h dinv src dst = Cert.ReferenceIdeal.RefValue.agg128 h (Cert.ReferenceIdeal.RefValue.edgeNorm dinv src dst) src dst := by
  unfold Cert.KernelIdeal.HostValue.agg128 Cert.ReferenceIdeal.RefValue.agg128
  exact layer_eq (N := 50000) (R := 850000) (C := 128)
    (Cert.KernelIdeal.gather_S50000x128_S850000x1_S850000x128_1_0_n_n_0_1_1128).wf
    (Cert.ReferenceIdeal.gather_S50000_S850000x1_S850000_n_0_n_n_0_1_1).wf
    (Cert.KernelIdeal.scatter_S50000x128_S850000x1_S850000x128_1_0_0_1).wf
    h (Cert.KernelIdeal.HostValue.spread128 dinv) Cert.KernelIdeal.HostValue.zeros128 dinv (Cert.ReferenceIdeal.RefValue.espread128 (Cert.ReferenceIdeal.RefValue.edgeNorm dinv src dst))
    (Cert.KernelIdeal.HostValue.normCol src) (Cert.KernelIdeal.HostValue.normCol dst) (Cert.KernelIdeal.HostValue.rawCol dst)
    hh hd zeros128_apply (spread128_apply dinv)
    (fun j => by rw [espread128_apply]; rfl)
    (fun e he => norm_of_nonneg dst e he)

theorem layer128_eq (h : FVec Ideal Cert.KernelIdeal.S50000x128 .f32) (dinv : FVec Ideal Cert.KernelIdeal.S50000 .f32) (src dst : IVec Cert.KernelIdeal.S850000 32)
    (b : FVec Ideal Cert.KernelIdeal.S128 .f32) (hh : ∀ i, IsReal (h i)) (hd : ∀ i, IsReal (dinv i)) :
    Cert.KernelIdeal.HostValue.layer128 h dinv src dst b = Cert.ReferenceIdeal.RefValue.layer128 h (Cert.ReferenceIdeal.RefValue.edgeNorm dinv src dst) src dst b := by
  unfold Cert.KernelIdeal.HostValue.layer128 Cert.ReferenceIdeal.RefValue.layer128
  rw [agg128_eq h dinv src dst hh hd]
  rfl

/-- A layer of real tables, real `dinv` and a real bias holds real numbers. -/
theorem layer128_isReal (h : FVec Ideal Cert.KernelIdeal.S50000x128 .f32) (dinv : FVec Ideal Cert.KernelIdeal.S50000 .f32) (src dst : IVec Cert.KernelIdeal.S850000 32)
    (b : FVec Ideal Cert.KernelIdeal.S128 .f32) (hh : ∀ i, IsReal (h i)) (hd : ∀ i, IsReal (dinv i)) (hb : ∀ i, IsReal (b i))
    (i : Cert.KernelIdeal.S50000x128.Idx) : IsReal (Cert.KernelIdeal.HostValue.layer128 h dinv src dst b i) := by
  unfold Cert.KernelIdeal.HostValue.layer128 Cert.KernelIdeal.HostValue.agg128
  rw [addf_apply, mulf_apply]
  refine IsReal.add (IsReal.mul (scatterAdd_isReal _ _ _ _ (fun i => by rw [zeros128_apply]; exact IsReal.zero)
    (fun j => gather_isReal _ _ _ (fun i => by rw [mulf_apply, spread128_apply]; exact (hh i).mul (hd _)) j) i)
    (by rw [spread128_apply]; exact hd _)) ?_
  unfold Cert.KernelIdeal.HostValue.bias128
  exact hb _

/-! ## The matrix products -/

theorem plainR256 : PlainDot.IsPlain Cert.ReferenceIdeal.dot_S50000x256_S256x256_S50000x256_1_0_0_1_n_n := ⟨rfl, rfl, rfl, rfl, rfl, rfl⟩
theorem plainR128 : PlainDot.IsPlain Cert.ReferenceIdeal.dot_S50000x256_S256x128_S50000x128_1_0_0_1_n_n := ⟨rfl, rfl, rfl, rfl, rfl, rfl⟩

/-- The kernel's whole product through the cast weight is the reference's `dot_general`. -/
theorem prod256_eq (x : FVec Ideal Cert.KernelIdeal.S50000x256 .f32) (w : FVec Ideal Cert.KernelIdeal.S256x256 .f32) :
    matProd (P := 50000) (K := 256) (Q := 256) x (Cert.KernelIdeal.HostValue.castW256 w)
      = Host.dotGeneral Cert.ReferenceIdeal.dot_S50000x256_S256x256_S50000x256_1_0_0_1_n_n none x w :=
  (dotGeneral_eq plainR256 .single x w).symm
theorem prod128_eq (x : FVec Ideal Cert.KernelIdeal.S50000x256 .f32) (w : FVec Ideal Cert.KernelIdeal.S256x128 .f32) :
    matProd (P := 50000) (K := 256) (Q := 128) x (Cert.KernelIdeal.HostValue.castW128 w)
      = Host.dotGeneral Cert.ReferenceIdeal.dot_S50000x256_S256x128_S50000x128_1_0_0_1_n_n none x w :=
  (dotGeneral_eq plainR128 .single x w).symm

/-! ## The two programs' functions are equal on real inputs -/

theorem value_eq (x0 : FVec Ideal Cert.KernelIdeal.S50000x256 .f32) (x1 : IVec Cert.KernelIdeal.S2x800000 32) (x2 : FVec Ideal Cert.KernelIdeal.S256x256 .f32)
    (x3 : FVec Ideal Cert.KernelIdeal.S256 .f32) (x4 : FVec Ideal Cert.KernelIdeal.S256x128 .f32) (x5 : FVec Ideal Cert.KernelIdeal.S128 .f32)
    (h0 : ∀ i, IsReal (x0 i)) (h2 : ∀ i, IsReal (x2 i)) (h3 : ∀ i, IsReal (x3 i)) (h4 : ∀ i, IsReal (x4 i)) (h5 : ∀ i, IsReal (x5 i)) :
    Cert.KernelIdeal.HostValue.value x0 x1 x2 x3 x4 x5 = Cert.ReferenceIdeal.RefValue.value x0 x1 x2 x3 x4 x5 := by
  have hD := dinvArr_isReal x1
  have hA1 : ∀ i, IsReal (matProd (P := 50000) (K := 256) (Q := 256) x0 (Cert.KernelIdeal.HostValue.castW256 x2) i) :=
    matProd_isReal _ _ h0 (fun i => h2 i)
  have hL1 := layer256_isReal _ _ (Cert.KernelIdeal.HostValue.srcArr x1) (Cert.KernelIdeal.HostValue.dstArr x1) x3 hA1 hD h3
  have hH1 : ∀ i, IsReal (maximumf (Cert.KernelIdeal.HostValue.layer256 (matProd (P := 50000) (K := 256) (Q := 256) x0 (Cert.KernelIdeal.HostValue.castW256 x2))
      (Cert.KernelIdeal.HostValue.dinvArr x1) (Cert.KernelIdeal.HostValue.srcArr x1) (Cert.KernelIdeal.HostValue.dstArr x1) x3) Cert.KernelIdeal.HostValue.zeros256 i) := fun i => by
    rw [maximumf_apply, zeros256_apply]; exact (hL1 i).max IsReal.zero
  have hA2 := matProd_isReal (P := 50000) (K := 256) (Q := 128) _ (Cert.KernelIdeal.HostValue.castW128 x4) hH1 (fun i => h4 i)
  unfold Cert.KernelIdeal.HostValue.value Cert.ReferenceIdeal.RefValue.value
  rw [layer128_eq _ _ _ _ _ hA2 hD, layer256_eq _ _ _ _ _ hA1 hD, prod256_eq, prod128_eq]
  rfl

end Cert.Bridge

end
-- ==== Proof.lean ====
/-
  A two-layer graph convolution on 50000 nodes and 800000 edges (plus one self-loop per node): the kernel against its
  reference, on the extended reals.

  With `h = x · W` the layer's dense product, `dinv v = 1 / sqrt (deg v)` (zero where the in-degree is not positive) and
  the sum running over the edges `e` whose destination is `v`,

      reference:  out[v, c] = ∑ h[src e, c] · (dinv[src e] · dinv[dst e]) + b[c]
      kernel:     out[v, c] = (∑ (h[src e, c] · dinv[src e])) · dinv[v] + b[c]

  followed by `max(·, 0)` after the first layer. The two agree because `dinv[dst e] = dinv[v]` on the segment — a
  scattered update lands on row `v` exactly when its destination index, read as a signed integer, is `v`, and then the
  gather's normalised and clamped index is `v` as well, whatever the other entries of the edge-index array are — and
  because a real factor moves across a finite sum of real numbers. Finiteness of the inputs is what makes the products
  and `dinv` real. The kernel computes `x · W` block by block on the matrix unit from weights narrowed to bfloat16: at the
  ideal instance the narrowing is the identity and the ten 5000-row blocks are the rows of the one product.

  The modules: `LibRowIndexing` (where a gather reads and a scattered update lands), `LibSegmentScale` (the law on
  sums, the layer law), `LibMatProd` (the product as one function), `KernelRegions` (each region's output array),
  `KernelRun` (the kernel's run with its result named), `KernelHost` (the kernel's result as a function of the
  arguments), `RefValue` (the reference's), `PreFinite` (the precondition read), `Bridge` (the two functions are equal).
-/
import proofs.«131490_j2448131358806_2_alg».proof.Defs
import proofs.«131490_j2448131358806_2_alg».proof.Proof.Gen.Kernel
import proofs.«131490_j2448131358806_2_alg».proof.Proof.Gen.Kernel.Frame
import proofs.«131490_j2448131358806_2_alg».proof.Proof.Gen.KernelIdeal
import proofs.«131490_j2448131358806_2_alg».proof.Proof.Gen.KernelIdeal.Frame
import proofs.«131490_j2448131358806_2_alg».proof.Proof.Gen.ReferenceIdeal
import proofs.«131490_j2448131358806_2_alg».proof.Proof.Gen.Pre_finite_inputs
import proofs.«131490_j2448131358806_2_alg».proof.Proof.KernelRun
import proofs.«131490_j2448131358806_2_alg».proof.Proof.KernelHost
import proofs.«131490_j2448131358806_2_alg».proof.Proof.RefRunP
import proofs.«131490_j2448131358806_2_alg».proof.Proof.RefValue
import proofs.«131490_j2448131358806_2_alg».proof.Proof.PreFinite
import proofs.«131490_j2448131358806_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories agreeing on the six arguments, both programs end with the result at `value` of the kernel's arguments:
    the kernel by its run read through the boundaries, the reference by its run's composed term, the arguments' agreement
    and the equality of the two functions on finite inputs. -/
theorem algebraic : Cert.algebraic_KernelIdeal_ReferenceIdeal := by
  intro m ρ m' ρ' hpre hagree
  refine ⟨_, (θ_run Cert.KernelIdeal.defs _ _).mono
    (fun r h c => ⟨(h c).1.trans (Cert.KernelIdeal.HostValue.result_eq m ρ c), (h c).2⟩)
    (Cert.KernelIdeal.RunValue.run_result (F := Ideal) m ρ), ?_⟩
  refine (θ_run Cert.ReferenceIdeal.defs _ _).mono (fun r h c => ⟨(h c).1.trans ?_, (h c).2⟩)
    (Cert.ReferenceIdeal.ValueP.run (F := Ideal) m' ρ')
  obtain ⟨h0, h2, h3, h4, h5⟩ := Cert.Pre_finite_inputs.Decode.inputs_isReal _ _ _ _ _ _ (hpre c)
  obtain ⟨a0, a1, a2, a3, a4, a5⟩ := hagree c
  refine (Cert.ReferenceIdeal.RefValue.res_eq m' c).trans ?_
  rw [a0, a1, a2, a3, a4, a5]
  exact (Cert.Bridge.value_eq _ _ _ _ _ _ h0 h2 h3 h4 h5).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
